-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v99)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v99) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S2x160000 : Shape := ⟨2, ![2, 160000]⟩
abbrev S10000 : Shape := ⟨1, ![10000]⟩
abbrev S3x512x512 : Shape := ⟨3, ![3, 512, 512]⟩
abbrev S3x512 : Shape := ⟨2, ![3, 512]⟩
abbrev S512x10 : Shape := ⟨2, ![512, 10]⟩
abbrev S10 : Shape := ⟨1, ![10]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S3x512x512 : S_.BroadcastsInDim S3x512x512 (![] : Fin 0 → Fin S3x512x512.rank)
  reducesTo_S3x512x512_S_d0_1_2 : S3x512x512.ReducesTo [0, 1, 2] S_
  bcast_S_S3x512 : S_.BroadcastsInDim S3x512 (![] : Fin 0 → Fin S3x512.rank)
  reducesTo_S3x512_S_d0_1 : S3x512.ReducesTo [0, 1] S_
  bcast_S_S512x10 : S_.BroadcastsInDim S512x10 (![] : Fin 0 → Fin S512x10.rank)
  reducesTo_S512x10_S_d0_1 : S512x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg6 : FVec F S10 .f32) (main_v13 : IVec S_ 1) (main_v16 : IVec S512x10 1) : IVec S_ 1 :=
  let main_c_5 : IVec S_ 1 := constantI S_ 1 1#1
  let main_v17 : IVec S_ 1 := (fun x v => Host.reduce IntOp.andi x v reducesTo_S512x10_S_d0_1 h_S_) main_v16 main_c_5
  let main_v18 : IVec S_ 1 := andi main_v13 main_v17
  let main_v19 : FVec F S10 .f32 := Host.absf main_arg6
  let main_cst_6 : FVec F S_ .f32 := constant S_ .f32 0x7F800000#32
  let main_v20 : FVec F S10 .f32 := broadcastInDim S10 ![] bcast_S_S10 main_cst_6
  let main_v21 : IVec S10 1 := cmpf .olt main_v19 main_v20
  let main_c_7 : IVec S_ 1 := constantI S_ 1 1#1
  let main_v22 : IVec S_ 1 := (fun x v => Host.reduce IntOp.andi x v reducesTo_S10_S_d0 h_S_) main_v21 main_c_7
  let main_v23 : IVec S_ 1 := andi main_v18 main_v22
  main_v23

def fn {F : FTy → Type} [FloatOps F] (main_arg0 : FVec F S10000x512 .f32) (main_arg1 : IVec S2x160000 32) (main_arg2 : IVec S10000 32) (main_arg3 : FVec F S3x512x512 .f32) (main_arg4 : FVec F S3x512 .f32) (main_arg5 : FVec F S512x10 .f32) (main_arg6 : FVec F S10 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S3x512x512 .f32 := Host.absf main_arg3
  let main_cst_0 : FVec F S_ .f32 := constant S_ .f32 0x7F800000#32
  let main_v5 : FVec F S3x512x512 .f32 := broadcastInDim S3x512x512 ![] bcast_S_S3x512x512 main_cst_0
  let main_v6 : IVec S3x512x512 1 := cmpf .olt main_v4 main_v5
  let main_c_1 : IVec S_ 1 := constantI S_ 1 1#1
  let main_v7 : IVec S_ 1 := (fun x v => Host.reduce IntOp.andi x v reducesTo_S3x512x512_S_d0_1_2 h_S_) main_v6 main_c_1
  let main_v8 : IVec S_ 1 := andi main_v3 main_v7
  let main_v9 : FVec F S3x512 .f32 := Host.absf main_arg4
  let main_cst_2 : FVec F S_ .f32 := constant S_ .f32 0x7F800000#32
  let main_v10 : FVec F S3x512 .f32 := broadcastInDim S3x512 ![] bcast_S_S3x512 main_cst_2
  let main_v11 : IVec S3x512 1 := cmpf .olt main_v9 main_v10
  let main_c_3 : IVec S_ 1 := constantI S_ 1 1#1
  let main_v12 : IVec S_ 1 := (fun x v => Host.reduce IntOp.andi x v reducesTo_S3x512_S_d0_1 h_S_) main_v11 main_c_3
  let main_v13 : IVec S_ 1 := andi main_v8 main_v12
  let main_v14 : FVec F S512x10 .f32 := Host.absf main_arg5
  let main_cst_4 : FVec F S_ .f32 := constant S_ .f32 0x7F800000#32
  let main_v15 : FVec F S512x10 .f32 := broadcastInDim S512x10 ![] bcast_S_S512x10 main_cst_4
  let main_v16 : IVec S512x10 1 := cmpf .olt main_v14 main_v15
  fn_part1 (F := F) main_arg6 main_v13 main_v16
-- ==== Kernel.lean ====
abbrev S10000x512 : Shape := ⟨2, ![10000, 512]⟩
abbrev S2x160000 : Shape := ⟨2, ![2, 160000]⟩
abbrev S10000 : Shape := ⟨1, ![10000]⟩
abbrev S3x512x512 : Shape := ⟨3, ![3, 512, 512]⟩
abbrev S3x512 : Shape := ⟨2, ![3, 512]⟩
abbrev S512x10 : Shape := ⟨2, ![512, 10]⟩
abbrev S10 : Shape := ⟨1, ![10]⟩
abbrev S1x160000 : Shape := ⟨2, ![1, 160000]⟩
abbrev S160000 : Shape := ⟨1, ![160000]⟩
abbrev S170000 : Shape := ⟨1, ![170000]⟩
abbrev S_ : Shape := ⟨0, ![]⟩
abbrev S170000x1 : Shape := ⟨2, ![170000, 1]⟩
abbrev S1x512x512 : Shape := ⟨3, ![1, 512, 512]⟩
abbrev S512x512 : Shape := ⟨2, ![512, 512]⟩
abbrev S1000x512 : Shape := ⟨2, ![1000, 512]⟩
abbrev S170000x512 : Shape := ⟨2, ![170000, 512]⟩
abbrev S1x512 : Shape := ⟨2, ![1, 512]⟩
abbrev S512 : Shape := ⟨1, ![512]⟩
abbrev S64x512 : Shape := ⟨2, ![64, 512]⟩
abbrev S10000x1 : Shape := ⟨2, ![10000, 1]⟩
abbrev S64x10 : Shape := ⟨2, ![64, 10]⟩
abbrev S1x10 : Shape := ⟨2, ![1, 10]⟩
abbrev S64 : Shape := ⟨1, ![64]⟩
abbrev S64x1 : Shape := ⟨2, ![64, 1]⟩

abbrev nBuf : Space → Nat
  | .hbm => 143
  | .vmem => 15
  | .smem => 0
  | _ => 0

abbrev hbmTy0_0 (i : Nat) : BufTy := match i % 128 with
  | 0 => ⟨S10000x512, .f32⟩
  | 1 => ⟨S2x160000, .i32⟩
  | 2 => ⟨S10000, .i32⟩
  | 3 => ⟨S3x512x512, .f32⟩
  | 4 => ⟨S3x512, .f32⟩
  | 5 => ⟨S512x10, .f32⟩
  | 6 => ⟨S10, .f32⟩
  | 7 => ⟨S1x160000, .i32⟩
  | 8 => ⟨S160000, .i32⟩
  | 9 => ⟨S1x160000, .i32⟩
  | 10 => ⟨S160000, .i32⟩
  | 11 => ⟨S10000, .i32⟩
  | 12 => ⟨S170000, .i32⟩
  | 13 => ⟨S170000, .i32⟩
  | 14 => ⟨S_, .f32⟩
  | 15 => ⟨S170000, .f32⟩
  | 16 => ⟨S_, .f32⟩
  | 17 => ⟨S10000, .f32⟩
  | 18 => ⟨S170000x1, .i32⟩
  | 19 => ⟨S10000, .f32⟩
  | 20 => ⟨S10000, .f32⟩
  | 21 => ⟨S_, .i32⟩
  | 22 => ⟨S170000, .i32⟩
  | 23 => ⟨S170000, .i1⟩
  | 24 => ⟨S_, .i32⟩
  | 25 => ⟨S170000, .i32⟩
  | 26 => ⟨S170000, .i32⟩
  | 27 => ⟨S170000, .i32⟩
  | 28 => ⟨S170000x1, .i32⟩
  | 29 => ⟨S170000, .f32⟩
  | 30 => ⟨S_, .i32⟩
  | 31 => ⟨S170000, .i32⟩
  | 32 => ⟨S170000, .i1⟩
  | 33 => ⟨S_, .i32⟩
  | 34 => ⟨S170000, .i32⟩
  | 35 => ⟨S170000, .i32⟩
  | 36 => ⟨S170000, .i32⟩
  | 37 => ⟨S170000x1, .i32⟩
  | 38 => ⟨S170000, .f32⟩
  | 39 => ⟨S170000, .f32⟩
  | 40 => ⟨S170000x1, .f32⟩
  | 41 => ⟨S3x512x512, .bf16⟩
  | 42 => ⟨S1x512x512, .bf16⟩
  | 43 => ⟨S512x512, .bf16⟩
  | 44 => ⟨S10000x512, .f32⟩
  | 45 => ⟨S_, .i32⟩
  | 46 => ⟨S170000, .i32⟩
  | 47 => ⟨S170000, .i1⟩
  | 48 => ⟨S_, .i32⟩
  | 49 => ⟨S170000, .i32⟩
  | 50 => ⟨S170000, .i32⟩
  | 51 => ⟨S170000, .i32⟩
  | 52 => ⟨S170000x1, .i32⟩
  | 53 => ⟨S170000x512, .f32⟩
  | 54 => ⟨S170000x512, .f32⟩
  | 55 => ⟨S170000x512, .f32⟩
  | 56 => ⟨S_, .f32⟩
  | 57 => ⟨S10000x512, .f32⟩
  | 58 => ⟨S170000x1, .i32⟩
  | 59 => ⟨S10000x512, .f32⟩
  | 60 => ⟨S1x512, .f32⟩
  | 61 => ⟨S512, .f32⟩
  | 62 => ⟨S1x512, .f32⟩
  | 63 => ⟨S10000x512, .f32⟩
  | 64 => ⟨S10000x512, .f32⟩
  | 65 => ⟨S_, .f32⟩
  | 66 => ⟨S10000x512, .f32⟩
  | 67 => ⟨S10000x512, .f32⟩
  | 68 => ⟨S1x512x512, .bf16⟩
  | 69 => ⟨S512x512, .bf16⟩
  | 70 => ⟨S10000x512, .f32⟩
  | 71 => ⟨S_, .i32⟩
  | 72 => ⟨S170000, .i32⟩
  | 73 => ⟨S170000, .i1⟩
  | 74 => ⟨S_, .i32⟩
  | 75 => ⟨S170000, .i32⟩
  | 76 => ⟨S170000, .i32⟩
  | 77 => ⟨S170000, .i32⟩
  | 78 => ⟨S170000x1, .i32⟩
  | 79 => ⟨S170000x512, .f32⟩
  | 80 => ⟨S170000x512, .f32⟩
  | 81 => ⟨S170000x512, .f32⟩
  | 82 => ⟨S_, .f32⟩
  | 83 => ⟨S10000x512, .f32⟩
  | 84 => ⟨S170000x1, .i32⟩
  | 85 => ⟨S10000x512, .f32⟩
  | 86 => ⟨S1x512, .f32⟩
  | 87 => ⟨S512, .f32⟩
  | 88 => ⟨S1x512, .f32⟩
  | 89 => ⟨S10000x512, .f32⟩
  | 90 => ⟨S10000x512, .f32⟩
  | 91 => ⟨S_, .f32⟩
  | 92 => ⟨S10000x512, .f32⟩
  | 93 => ⟨S10000x512, .f32⟩
  | 94 => ⟨S1x512x512, .bf16⟩
  | 95 => ⟨S512x512, .bf16⟩
  | 96 => ⟨S10000x512, .f32⟩
  | 97 => ⟨S_, .i32⟩
  | 98 => ⟨S170000, .i32⟩
  | 99 => ⟨S170000, .i1⟩
  | 100 => ⟨S_, .i32⟩
  | 101 => ⟨S170000, .i32⟩
  | 102 => ⟨S170000, .i32⟩
  | 103 => ⟨S170000, .i32⟩
  | 104 => ⟨S170000x1, .i32⟩
  | 105 => ⟨S170000x512, .f32⟩
  | 106 => ⟨S170000x512, .f32⟩
  | 107 => ⟨S170000x512, .f32⟩
  | 108 => ⟨S_, .f32⟩
  | 109 => ⟨S10000x512, .f32⟩
  | 110 => ⟨S170000x1, .i32⟩
  | 111 => ⟨S10000x512, .f32⟩
  | 112 => ⟨S1x512, .f32⟩
  | 113 => ⟨S512, .f32⟩
  | 114 => ⟨S1x512, .f32⟩
  | 115 => ⟨S10000x512, .f32⟩
  | 116 => ⟨S10000x512, .f32⟩
  | 117 => ⟨S_, .f32⟩
  | 118 => ⟨S10000x512, .f32⟩
  | 119 => ⟨S10000x512, .f32⟩
  | 120 => ⟨S_, .f32⟩
  | 121 => ⟨S64x512, .f32⟩
  | 122 => ⟨S10000x1, .i32⟩
  | 123 => ⟨S64x512, .f32⟩
  | 124 => ⟨S64x10, .f32⟩
  | 125 => ⟨S1x10, .f32⟩
  | 126 => ⟨S64x10, .f32⟩
  | 127 => ⟨S64x10, .f32⟩
  | _ => ⟨S10000x512, .f32⟩

abbrev hbmTy0_1 (i : Nat) : BufTy := match i % 128 with
  | 0 => ⟨S_, .f32⟩
  | 1 => ⟨S64, .f32⟩
  | 2 => ⟨S_, .f32⟩
  | 3 => ⟨S64, .f32⟩
  | 4 => ⟨S64, .f32⟩
  | 5 => ⟨S64x1, .f32⟩
  | 6 => ⟨S64x10, .f32⟩
  | 7 => ⟨S64x10, .f32⟩
  | 8 => ⟨S64x10, .f32⟩
  | 9 => ⟨S_, .f32⟩
  | 10 => ⟨S64, .f32⟩
  | 11 => ⟨S64x1, .f32⟩
  | 12 => ⟨S64x1, .f32⟩
  | 13 => ⟨S64x10, .f32⟩
  | 14 => ⟨S64x10, .f32⟩
  | _ => ⟨S10000x512, .f32⟩

abbrev hbmTy (i : Nat) : BufTy := match i / 128 with
  | 0 => hbmTy0_0 i
  | 1 => hbmTy0_1 i
  | _ => ⟨S10000x512, .f32⟩

abbrev bufTy : (tb : Table) → Fin (tcTables nBuf tb) → BufTy
  | .hbm, ⟨i, _⟩ => hbmTy i
  | .local _ .vmem, ⟨0, _⟩ => ⟨S1000x512, .f32⟩
  | .local _ .vmem, ⟨1, _⟩ => ⟨S1000x512, .f32⟩
  | .local _ .vmem, ⟨2, _⟩ => ⟨S512x512, .bf16⟩
  | .local _ .vmem, ⟨3, _⟩ => ⟨S1000x512, .f32⟩
  | .local _ .vmem, ⟨4, _⟩ => ⟨S1000x512, .f32⟩
  | .local _ .vmem, ⟨5, _⟩ => ⟨S1000x512, .f32⟩
  | .local _ .vmem, ⟨6, _⟩ => ⟨S1000x512, .f32⟩
  | .local _ .vmem, ⟨7, _⟩ => ⟨S512x512, .bf16⟩
  | .local _ .vmem, ⟨8, _⟩ => ⟨S1000x512, .f32⟩
  | .local _ .vmem, ⟨9, _⟩ => ⟨S1000x512, .f32⟩
  | .local _ .vmem, ⟨10, _⟩ => ⟨S1000x512, .f32⟩
  | .local _ .vmem, ⟨11, _⟩ => ⟨S1000x512, .f32⟩
  | .local _ .vmem, ⟨12, _⟩ => ⟨S512x512, .bf16⟩
  | .local _ .vmem, ⟨13, _⟩ => ⟨S1000x512, .f32⟩
  | .local _ .vmem, ⟨14, _⟩ => ⟨S1000x512, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_2 : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_4 : Ref sig .tc := ⟨.hbm, 45, rfl⟩
abbrev main_v32 : Ref sig .tc := ⟨.hbm, 46, rfl⟩
abbrev main_v33 : Ref sig .tc := ⟨.hbm, 47, rfl⟩
abbrev main_c_5 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_6 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_call0_cst : Ref sig .tc := ⟨.hbm, 65, rfl⟩
abbrev main_call0_v0 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_c_7 : Ref sig .tc := ⟨.hbm, 71, rfl⟩
abbrev main_v53 : Ref sig .tc := ⟨.hbm, 72, rfl⟩
abbrev main_v54 : Ref sig .tc := ⟨.hbm, 73, rfl⟩
abbrev main_c_8 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_9 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_call1_cst : Ref sig .tc := ⟨.hbm, 91, rfl⟩
abbrev main_call1_v0 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_c_10 : Ref sig .tc := ⟨.hbm, 97, rfl⟩
abbrev main_v74 : Ref sig .tc := ⟨.hbm, 98, rfl⟩
abbrev main_v75 : Ref sig .tc := ⟨.hbm, 99, rfl⟩
abbrev main_c_11 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_12 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_call2_cst : Ref sig .tc := ⟨.hbm, 117, rfl⟩
abbrev main_call2_v0 : Ref sig .tc := ⟨.hbm, 118, rfl⟩
abbrev main_v91 : Ref sig .tc := ⟨.hbm, 119, rfl⟩
abbrev main_cst_13 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_call3_cst : Ref sig .tc := ⟨.hbm, 128, rfl⟩
abbrev main_call3_v0 : Ref sig .tc := ⟨.hbm, 129, rfl⟩
abbrev main_call3_cst_0 : Ref sig .tc := ⟨.hbm, 130, rfl⟩
abbrev main_call3_v1 : Ref sig .tc := ⟨.hbm, 131, rfl⟩
abbrev main_call3_v2 : Ref sig .tc := ⟨.hbm, 132, rfl⟩
abbrev main_call3_v3 : Ref sig .tc := ⟨.hbm, 133, rfl⟩
abbrev main_call3_v4 : Ref sig .tc := ⟨.hbm, 134, rfl⟩
abbrev main_call3_v5 : Ref sig .tc := ⟨.hbm, 135, rfl⟩
abbrev main_call3_v6 : Ref sig .tc := ⟨.hbm, 136, rfl⟩
abbrev main_call3_cst_1 : Ref sig .tc := ⟨.hbm, 137, rfl⟩
abbrev main_call3_v7 : Ref sig .tc := ⟨.hbm, 138, rfl⟩
abbrev main_call3_v8 : Ref sig .tc := ⟨.hbm, 139, rfl⟩
abbrev main_call3_v9 : Ref sig .tc := ⟨.hbm, 140, rfl⟩
abbrev main_call3_v10 : Ref sig .tc := ⟨.hbm, 141, rfl⟩
abbrev main_v99 : Ref sig .tc := ⟨.hbm, 142, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1000x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x512 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1000x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  concatenates_S160000_S10000_S170000_d0 : Shape.Concatenates [S160000, S10000] S170000 0
  bcast_S_S170000 : S_.BroadcastsInDim S170000 (![] : Fin 0 → Fin S170000.rank)
  bcast_S_S10000 : S_.BroadcastsInDim S10000 (![] : Fin 0 → Fin S10000.rank)
  bcast_S170000_S170000x1_0 : S170000.BroadcastsInDim S170000x1 (![0] : Fin 1 → Fin S170000x1.rank)
  bitsLt_bf16_f32 : FTy.bits .bf16 < FTy.bits .f32
  slices_S3x512x512_S1x512x512_0_0_0 : S3x512x512.Slices ![0, 0, 0] S1x512x512
  shapeCasts_S1x512x512_S512x512 : S1x512x512.ShapeCasts S512x512
  inb_S1000x512_S1000x512_0_0 : ∀ a, (![0, 0] : Fin 2 → Nat) a + S1000x512.size a ≤ S1000x512.size a
  h_S1000x512 : 0 < S1000x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  bcast_S170000x1_S170000x512_0_1 : S170000x1.BroadcastsInDim S170000x512 (![0, 1] : Fin 2 → Fin S170000x512.rank)
  bcast_S_S10000x512 : S_.BroadcastsInDim S10000x512 (![] : Fin 0 → Fin S10000x512.rank)
  slices_S3x512_S1x512_0_0 : S3x512.Slices ![0, 0] S1x512
  shapeCasts_S1x512_S512 : S1x512.ShapeCasts S512
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  slices_S3x512x512_S1x512x512_1_0_0 : S3x512x512.Slices ![1, 0, 0] S1x512x512
  shapeCasts_S1000x512_S1000x512 : S1000x512.ShapeCasts S1000x512
  slices_S3x512_S1x512_1_0 : S3x512.Slices ![1, 0] S1x512
  slices_S3x512x512_S1x512x512_2_0_0 : S3x512x512.Slices ![2, 0, 0] S1x512x512
  slices_S3x512_S1x512_2_0 : S3x512.Slices ![2, 0] S1x512
  bcast_S_S64x512 : S_.BroadcastsInDim S64x512 (![] : Fin 0 → Fin S64x512.rank)
  bcast_S10000_S10000x1_0 : S10000.BroadcastsInDim S10000x1 (![0] : Fin 1 → Fin S10000x1.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  reducesTo_S64x10_S64_d1 : S64x10.ReducesTo [1] S64
  h_S_ : 0 < S_.numel
  bcast_S_S64 : S_.BroadcastsInDim S64 (![] : Fin 0 → Fin S64.rank)
  bcast_S64_S64x1_0 : S64.BroadcastsInDim S64x1 (![0] : Fin 1 → Fin S64x1.rank)
  bcast_S64x1_S64x10_0_1 : S64x1.BroadcastsInDim S64x10 (![0, 1] : Fin 2 → Fin S64x10.rank)
  scatter_S10000_S170000x1_S170000_n_0_0_1_wf : ScatterDims.WF S10000 S170000x1 S170000 [] [0] [0] 1
  gather_S10000_S170000x1_S170000_n_0_n_n_0_1_1_wf : GatherDims.WF S10000 S170000x1 S170000 [] [0] [] [0] [] 1 ![1]
  dot_S1000x512_S512x512_S1000x512_1_0_0_1_n_n_wf : DotDims.WF S1000x512 S512x512 S1000x512 [1] [0] [0] [1] [] []
  gather_S10000x512_S170000x1_S170000x512_1_0_n_n_0_1_1512_wf : GatherDims.WF S10000x512 S170000x1 S170000x512 [1] [0] [] [0] [] 1 ![1, 512]
  scatter_S10000x512_S170000x1_S170000x512_1_0_0_1_wf : ScatterDims.WF S10000x512 S170000x1 S170000x512 [1] [0] [0] 1
  scatter_S64x512_S10000x1_S10000x512_1_0_0_1_wf : ScatterDims.WF S64x512 S10000x1 S10000x512 [1] [0] [0] 1
  dot_S64x512_S512x10_S64x10_1_0_0_1_n_n_wf : DotDims.WF S64x512 S512x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S10000x512.size a
  hwx0_0 : ∀ i : grid0.Coords, EltTy.bits .f32 = 32 ∨ (Rect.block (s := S10000x512) S1000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x512.size a ≤ S10000x512.size a
  hwx0_2 : ∀ i : grid0.Coords, EltTy.bits .f32 = 32 ∨ (Rect.block (s := S10000x512) S1000x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x512.size a ≤ S10000x512.size a
  hwx1_0 : ∀ i : grid1.Coords, EltTy.bits .f32 = 32 ∨ (Rect.block (s := S10000x512) S1000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .bf16 = 32 ∨ (Rect.block (s := S512x512) S512x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x512.size a ≤ S10000x512.size a
  hwx1_2 : ∀ i : grid1.Coords, EltTy.bits .f32 = 32 ∨ (Rect.block (s := S10000x512) S1000x512.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x512.size a ≤ S10000x512.size a
  hwx2_0 : ∀ i : grid2.Coords, EltTy.bits .f32 = 32 ∨ (Rect.block (s := S10000x512) S1000x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S512x512.size a
  hwx2_1 : ∀ i : grid2.Coords, EltTy.bits .bf16 = 32 ∨ (Rect.block (s := S512x512) S512x512.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x512.size a ≤ S10000x512.size a
  hwx2_2 : ∀ i : grid2.Coords, EltTy.bits .f32 = 32 ∨ (Rect.block (s := S10000x512) S1000x512.size (cc2_transform_2 i) (hinb2_2 i)).WholeWords (EltTy.packing .f32)

variable [Facts₀]

def scatter_S10000_S170000x1_S170000_n_0_0_1 : ScatterDims S10000 S170000x1 S170000 where
  updateWindowDims := []
  insertedWindowDims := [0]
  scatterDimsToOperandDims := [0]
  indexVectorDim := 1
  wf := scatter_S10000_S170000x1_S170000_n_0_0_1_wf
def gather_S10000_S170000x1_S170000_n_0_n_n_0_1_1 : GatherDims S10000 S170000x1 S170000 where
  offsetDims := []
  collapsedSliceDims := [0]
  operandBatchingDims := []
  startIndicesBatchingDims := []
  startIndexMap := [0]
  indexVectorDim := 1
  sliceSizes := ![1]
  wf := gather_S10000_S170000x1_S170000_n_0_n_n_0_1_1_wf
def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf
def gather_S10000x512_S170000x1_S170000x512_1_0_n_n_0_1_1512 : GatherDims S10000x512 S170000x1 S170000x512 where
  offsetDims := [1]
  collapsedSliceDims := [0]
  operandBatchingDims := []
  startIndicesBatchingDims := []
  startIndexMap := [0]
  indexVectorDim := 1
  sliceSizes := ![1, 512]
  wf := gather_S10000x512_S170000x1_S170000x512_1_0_n_n_0_1_1512_wf
def scatter_S10000x512_S170000x1_S170000x512_1_0_0_1 : ScatterDims S10000x512 S170000x1 S170000x512 where
  updateWindowDims := [1]
  insertedWindowDims := [0]
  scatterDimsToOperandDims := [0]
  indexVectorDim := 1
  wf := scatter_S10000x512_S170000x1_S170000x512_1_0_0_1_wf
def scatter_S64x512_S10000x1_S10000x512_1_0_0_1 : ScatterDims S64x512 S10000x1 S10000x512 where
  updateWindowDims := [1]
  insertedWindowDims := [0]
  scatterDimsToOperandDims := [0]
  indexVectorDim := 1
  wf := scatter_S64x512_S10000x1_S10000x512_1_0_0_1_wf
def dot_S64x512_S512x10_S64x10_1_0_0_1_n_n : DotDims S64x512 S512x10 S64x10 where
  lhsContracting := [1]
  rhsContracting := [0]
  lhsNonContracting := [0]
  rhsNonContracting := [1]
  lhsBatch := []
  rhsBatch := []
  wf := dot_S64x512_S512x10_S64x10_1_0_0_1_n_n_wf

abbrev win0_0 : Pipeline.Window sig grid0 :=
  Pipeline.Window.ofSpec (Memref.whole main_arg0) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S1000x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S1000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v51) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v52) S1000x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v70) S1000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v72) S512x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v73) S1000x512.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S10000x512 : Shape := ⟨2, ![10000, 512]⟩
abbrev S2x160000 : Shape := ⟨2, ![2, 160000]⟩
abbrev S10000 : Shape := ⟨1, ![10000]⟩
abbrev S3x512x512 : Shape := ⟨3, ![3, 512, 512]⟩
abbrev S3x512 : Shape := ⟨2, ![3, 512]⟩
abbrev S512x10 : Shape := ⟨2, ![512, 10]⟩
abbrev S10 : Shape := ⟨1, ![10]⟩
abbrev S1x160000 : Shape := ⟨2, ![1, 160000]⟩
abbrev S160000 : Shape := ⟨1, ![160000]⟩
abbrev S170000 : Shape := ⟨1, ![170000]⟩
abbrev S_ : Shape := ⟨0, ![]⟩
abbrev S170000x1 : Shape := ⟨2, ![170000, 1]⟩
abbrev S1x512x512 : Shape := ⟨3, ![1, 512, 512]⟩
abbrev S512x512 : Shape := ⟨2, ![512, 512]⟩
abbrev S170000x512 : Shape := ⟨2, ![170000, 512]⟩
abbrev S1x512 : Shape := ⟨2, ![1, 512]⟩
abbrev S512 : Shape := ⟨1, ![512]⟩
abbrev S64x512 : Shape := ⟨2, ![64, 512]⟩
abbrev S10000x1 : Shape := ⟨2, ![10000, 1]⟩
abbrev S64x10 : Shape := ⟨2, ![64, 10]⟩
abbrev S1x10 : Shape := ⟨2, ![1, 10]⟩
abbrev S64 : Shape := ⟨1, ![64]⟩
abbrev S64x1 : Shape := ⟨2, ![64, 1]⟩

abbrev nBuf : Space → Nat
  | .hbm => 142
  | .vmem => 0
  | .smem => 0
  | _ => 0

abbrev hbmTy0_0 (i : Nat) : BufTy := match i % 128 with
  | 0 => ⟨S10000x512, .f32⟩
  | 1 => ⟨S2x160000, .i32⟩
  | 2 => ⟨S10000, .i32⟩
  | 3 => ⟨S3x512x512, .f32⟩
  | 4 => ⟨S3x512, .f32⟩
  | 5 => ⟨S512x10, .f32⟩
  | 6 => ⟨S10, .f32⟩
  | 7 => ⟨S10000, .i32⟩
  | 8 => ⟨S1x160000, .i32⟩
  | 9 => ⟨S160000, .i32⟩
  | 10 => ⟨S170000, .i32⟩
  | 11 => ⟨S1x160000, .i32⟩
  | 12 => ⟨S160000, .i32⟩
  | 13 => ⟨S170000, .i32⟩
  | 14 => ⟨S_, .f32⟩
  | 15 => ⟨S170000, .f32⟩
  | 16 => ⟨S_, .f32⟩
  | 17 => ⟨S10000, .f32⟩
  | 18 => ⟨S170000x1, .i32⟩
  | 19 => ⟨S10000, .f32⟩
  | 20 => ⟨S10000, .f32⟩
  | 21 => ⟨S_, .i32⟩
  | 22 => ⟨S170000, .i32⟩
  | 23 => ⟨S170000, .i1⟩
  | 24 => ⟨S_, .i32⟩
  | 25 => ⟨S170000, .i32⟩
  | 26 => ⟨S170000, .i32⟩
  | 27 => ⟨S170000, .i32⟩
  | 28 => ⟨S170000x1, .i32⟩
  | 29 => ⟨S170000, .f32⟩
  | 30 => ⟨S_, .i32⟩
  | 31 => ⟨S170000, .i32⟩
  | 32 => ⟨S170000, .i1⟩
  | 33 => ⟨S_, .i32⟩
  | 34 => ⟨S170000, .i32⟩
  | 35 => ⟨S170000, .i32⟩
  | 36 => ⟨S170000, .i32⟩
  | 37 => ⟨S170000x1, .i32⟩
  | 38 => ⟨S170000, .f32⟩
  | 39 => ⟨S170000, .f32⟩
  | 40 => ⟨S170000x1, .f32⟩
  | 41 => ⟨S1x512x512, .f32⟩
  | 42 => ⟨S512x512, .f32⟩
  | 43 => ⟨S10000x512, .f32⟩
  | 44 => ⟨S_, .i32⟩
  | 45 => ⟨S170000, .i32⟩
  | 46 => ⟨S170000, .i1⟩
  | 47 => ⟨S_, .i32⟩
  | 48 => ⟨S170000, .i32⟩
  | 49 => ⟨S170000, .i32⟩
  | 50 => ⟨S170000, .i32⟩
  | 51 => ⟨S170000x1, .i32⟩
  | 52 => ⟨S170000x512, .f32⟩
  | 53 => ⟨S170000x512, .f32⟩
  | 54 => ⟨S170000x512, .f32⟩
  | 55 => ⟨S_, .f32⟩
  | 56 => ⟨S10000x512, .f32⟩
  | 57 => ⟨S170000x1, .i32⟩
  | 58 => ⟨S10000x512, .f32⟩
  | 59 => ⟨S1x512, .f32⟩
  | 60 => ⟨S512, .f32⟩
  | 61 => ⟨S1x512, .f32⟩
  | 62 => ⟨S10000x512, .f32⟩
  | 63 => ⟨S10000x512, .f32⟩
  | 64 => ⟨S_, .f32⟩
  | 65 => ⟨S10000x512, .f32⟩
  | 66 => ⟨S10000x512, .f32⟩
  | 67 => ⟨S1x512x512, .f32⟩
  | 68 => ⟨S512x512, .f32⟩
  | 69 => ⟨S10000x512, .f32⟩
  | 70 => ⟨S_, .i32⟩
  | 71 => ⟨S170000, .i32⟩
  | 72 => ⟨S170000, .i1⟩
  | 73 => ⟨S_, .i32⟩
  | 74 => ⟨S170000, .i32⟩
  | 75 => ⟨S170000, .i32⟩
  | 76 => ⟨S170000, .i32⟩
  | 77 => ⟨S170000x1, .i32⟩
  | 78 => ⟨S170000x512, .f32⟩
  | 79 => ⟨S170000x512, .f32⟩
  | 80 => ⟨S170000x512, .f32⟩
  | 81 => ⟨S_, .f32⟩
  | 82 => ⟨S10000x512, .f32⟩
  | 83 => ⟨S170000x1, .i32⟩
  | 84 => ⟨S10000x512, .f32⟩
  | 85 => ⟨S1x512, .f32⟩
  | 86 => ⟨S512, .f32⟩
  | 87 => ⟨S1x512, .f32⟩
  | 88 => ⟨S10000x512, .f32⟩
  | 89 => ⟨S10000x512, .f32⟩
  | 90 => ⟨S_, .f32⟩
  | 91 => ⟨S10000x512, .f32⟩
  | 92 => ⟨S10000x512, .f32⟩
  | 93 => ⟨S1x512x512, .f32⟩
  | 94 => ⟨S512x512, .f32⟩
  | 95 => ⟨S10000x512, .f32⟩
  | 96 => ⟨S_, .i32⟩
  | 97 => ⟨S170000, .i32⟩
  | 98 => ⟨S170000, .i1⟩
  | 99 => ⟨S_, .i32⟩
  | 100 => ⟨S170000, .i32⟩
  | 101 => ⟨S170000, .i32⟩
  | 102 => ⟨S170000, .i32⟩
  | 103 => ⟨S170000x1, .i32⟩
  | 104 => ⟨S170000x512, .f32⟩
  | 105 => ⟨S170000x512, .f32⟩
  | 106 => ⟨S170000x512, .f32⟩
  | 107 => ⟨S_, .f32⟩
  | 108 => ⟨S10000x512, .f32⟩
  | 109 => ⟨S170000x1, .i32⟩
  | 110 => ⟨S10000x512, .f32⟩
  | 111 => ⟨S1x512, .f32⟩
  | 112 => ⟨S512, .f32⟩
  | 113 => ⟨S1x512, .f32⟩
  | 114 => ⟨S10000x512, .f32⟩
  | 115 => ⟨S10000x512, .f32⟩
  | 116 => ⟨S_, .f32⟩
  | 117 => ⟨S10000x512, .f32⟩
  | 118 => ⟨S10000x512, .f32⟩
  | 119 => ⟨S_, .f32⟩
  | 120 => ⟨S64x512, .f32⟩
  | 121 => ⟨S10000x1, .i32⟩
  | 122 => ⟨S64x512, .f32⟩
  | 123 => ⟨S64x10, .f32⟩
  | 124 => ⟨S1x10, .f32⟩
  | 125 => ⟨S64x10, .f32⟩
  | 126 => ⟨S64x10, .f32⟩
  | 127 => ⟨S_, .f32⟩
  | _ => ⟨S10000x512, .f32⟩

abbrev hbmTy0_1 (i : Nat) : BufTy := match i % 128 with
  | 0 => ⟨S64, .f32⟩
  | 1 => ⟨S_, .f32⟩
  | 2 => ⟨S64, .f32⟩
  | 3 => ⟨S64, .f32⟩
  | 4 => ⟨S64x1, .f32⟩
  | 5 => ⟨S64x10, .f32⟩
  | 6 => ⟨S64x10, .f32⟩
  | 7 => ⟨S64x10, .f32⟩
  | 8 => ⟨S_, .f32⟩
  | 9 => ⟨S64, .f32⟩
  | 10 => ⟨S64x1, .f32⟩
  | 11 => ⟨S64x1, .f32⟩
  | 12 => ⟨S64x10, .f32⟩
  | 13 => ⟨S64x10, .f32⟩
  | _ => ⟨S10000x512, .f32⟩

abbrev hbmTy (i : Nat) : BufTy := match i / 128 with
  | 0 => hbmTy0_0 i
  | 1 => hbmTy0_1 i
  | _ => ⟨S10000x512, .f32⟩

abbrev bufTy : (tb : Table) → Fin (tcTables nBuf tb) → BufTy
  | .hbm, ⟨i, _⟩ => hbmTy i
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_2 : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_4 : Ref sig .tc := ⟨.hbm, 44, rfl⟩
abbrev main_v31 : Ref sig .tc := ⟨.hbm, 45, rfl⟩
abbrev main_v32 : Ref sig .tc := ⟨.hbm, 46, rfl⟩
abbrev main_c_5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_c_7 : Ref sig .tc := ⟨.hbm, 70, rfl⟩
abbrev main_v52 : Ref sig .tc := ⟨.hbm, 71, rfl⟩
abbrev main_v53 : Ref sig .tc := ⟨.hbm, 72, rfl⟩
abbrev main_c_8 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_9 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_call1_cst : Ref sig .tc := ⟨.hbm, 90, rfl⟩
abbrev main_call1_v0 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_c_10 : Ref sig .tc := ⟨.hbm, 96, rfl⟩
abbrev main_v73 : Ref sig .tc := ⟨.hbm, 97, rfl⟩
abbrev main_v74 : Ref sig .tc := ⟨.hbm, 98, rfl⟩
abbrev main_c_11 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_cst_12 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_call2_cst : Ref sig .tc := ⟨.hbm, 116, rfl⟩
abbrev main_call2_v0 : Ref sig .tc := ⟨.hbm, 117, rfl⟩
abbrev main_v90 : Ref sig .tc := ⟨.hbm, 118, rfl⟩
abbrev main_cst_13 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_call3_cst : Ref sig .tc := ⟨.hbm, 127, rfl⟩
abbrev main_call3_v0 : Ref sig .tc := ⟨.hbm, 128, rfl⟩
abbrev main_call3_cst_0 : Ref sig .tc := ⟨.hbm, 129, rfl⟩
abbrev main_call3_v1 : Ref sig .tc := ⟨.hbm, 130, rfl⟩
abbrev main_call3_v2 : Ref sig .tc := ⟨.hbm, 131, rfl⟩
abbrev main_call3_v3 : Ref sig .tc := ⟨.hbm, 132, rfl⟩
abbrev main_call3_v4 : Ref sig .tc := ⟨.hbm, 133, rfl⟩
abbrev main_call3_v5 : Ref sig .tc := ⟨.hbm, 134, rfl⟩
abbrev main_call3_v6 : Ref sig .tc := ⟨.hbm, 135, rfl⟩
abbrev main_call3_cst_1 : Ref sig .tc := ⟨.hbm, 136, rfl⟩
abbrev main_call3_v7 : Ref sig .tc := ⟨.hbm, 137, rfl⟩
abbrev main_call3_v8 : Ref sig .tc := ⟨.hbm, 138, rfl⟩
abbrev main_call3_v9 : Ref sig .tc := ⟨.hbm, 139, rfl⟩
abbrev main_call3_v10 : Ref sig .tc := ⟨.hbm, 140, rfl⟩
abbrev main_v98 : Ref sig .tc := ⟨.hbm, 141, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  concatenates_S160000_S10000_S170000_d0 : Shape.Concatenates [S160000, S10000] S170000 0
  slices_S2x160000_S1x160000_1_0 : S2x160000.Slices ![1, 0] S1x160000
  bcast_S_S170000 : S_.BroadcastsInDim S170000 (![] : Fin 0 → Fin S170000.rank)
  bcast_S_S10000 : S_.BroadcastsInDim S10000 (![] : Fin 0 → Fin S10000.rank)
  bcast_S170000_S170000x1_0 : S170000.BroadcastsInDim S170000x1 (![0] : Fin 1 → Fin S170000x1.rank)
  slices_S3x512x512_S1x512x512_0_0_0 : S3x512x512.Slices ![0, 0, 0] S1x512x512
  shapeCasts_S1x512x512_S512x512 : S1x512x512.ShapeCasts S512x512
  bcast_S170000x1_S170000x512_0_1 : S170000x1.BroadcastsInDim S170000x512 (![0, 1] : Fin 2 → Fin S170000x512.rank)
  bcast_S_S10000x512 : S_.BroadcastsInDim S10000x512 (![] : Fin 0 → Fin S10000x512.rank)
  slices_S3x512_S1x512_0_0 : S3x512.Slices ![0, 0] S1x512
  shapeCasts_S1x512_S512 : S1x512.ShapeCasts S512
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  slices_S3x512x512_S1x512x512_1_0_0 : S3x512x512.Slices ![1, 0, 0] S1x512x512
  slices_S3x512_S1x512_1_0 : S3x512.Slices ![1, 0] S1x512
  slices_S3x512x512_S1x512x512_2_0_0 : S3x512x512.Slices ![2, 0, 0] S1x512x512
  slices_S3x512_S1x512_2_0 : S3x512.Slices ![2, 0] S1x512
  bcast_S_S64x512 : S_.BroadcastsInDim S64x512 (![] : Fin 0 → Fin S64x512.rank)
  bcast_S10000_S10000x1_0 : S10000.BroadcastsInDim S10000x1 (![0] : Fin 1 → Fin S10000x1.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  reducesTo_S64x10_S64_d1 : S64x10.ReducesTo [1] S64
  h_S_ : 0 < S_.numel
  bcast_S_S64 : S_.BroadcastsInDim S64 (![] : Fin 0 → Fin S64.rank)
  bcast_S64_S64x1_0 : S64.BroadcastsInDim S64x1 (![0] : Fin 1 → Fin S64x1.rank)
  bcast_S64x1_S64x10_0_1 : S64x1.BroadcastsInDim S64x10 (![0, 1] : Fin 2 → Fin S64x10.rank)
  scatter_S10000_S170000x1_S170000_n_0_0_1_wf : ScatterDims.WF S10000 S170000x1 S170000 [] [0] [0] 1
  gather_S10000_S170000x1_S170000_n_0_n_n_0_1_1_wf : GatherDims.WF S10000 S170000x1 S170000 [] [0] [] [0] [] 1 ![1]
  dot_S10000x512_S512x512_S10000x512_1_0_0_1_n_n_wf : DotDims.WF S10000x512 S512x512 S10000x512 [1] [0] [0] [1] [] []
  gather_S10000x512_S170000x1_S170000x512_1_0_n_n_0_1_1512_wf : GatherDims.WF S10000x512 S170000x1 S170000x512 [1] [0] [] [0] [] 1 ![1, 512]
  scatter_S10000x512_S170000x1_S170000x512_1_0_0_1_wf : ScatterDims.WF S10000x512 S170000x1 S170000x512 [1] [0] [0] 1
  scatter_S64x512_S10000x1_S10000x512_1_0_0_1_wf : ScatterDims.WF S64x512 S10000x1 S10000x512 [1] [0] [0] 1
  dot_S64x512_S512x10_S64x10_1_0_0_1_n_n_wf : DotDims.WF S64x512 S512x10 S64x10 [1] [0] [0] [1] [] []

variable [Facts₀]

def scatter_S10000_S170000x1_S170000_n_0_0_1 : ScatterDims S10000 S170000x1 S170000 where
  updateWindowDims := []
  insertedWindowDims := [0]
  scatterDimsToOperandDims := [0]
  indexVectorDim := 1
  wf := scatter_S10000_S170000x1_S170000_n_0_0_1_wf
def gather_S10000_S170000x1_S170000_n_0_n_n_0_1_1 : GatherDims S10000 S170000x1 S170000 where
  offsetDims := []
  collapsedSliceDims := [0]
  operandBatchingDims := []
  startIndicesBatchingDims := []
  startIndexMap := [0]
  indexVectorDim := 1
  sliceSizes := ![1]
  wf := gather_S10000_S170000x1_S170000_n_0_n_n_0_1_1_wf
def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf
def gather_S10000x512_S170000x1_S170000x512_1_0_n_n_0_1_1512 : GatherDims S10000x512 S170000x1 S170000x512 where
  offsetDims := [1]
  collapsedSliceDims := [0]
  operandBatchingDims := []
  startIndicesBatchingDims := []
  startIndexMap := [0]
  indexVectorDim := 1
  sliceSizes := ![1, 512]
  wf := gather_S10000x512_S170000x1_S170000x512_1_0_n_n_0_1_1512_wf
def scatter_S10000x512_S170000x1_S170000x512_1_0_0_1 : ScatterDims S10000x512 S170000x1 S170000x512 where
  updateWindowDims := [1]
  insertedWindowDims := [0]
  scatterDimsToOperandDims := [0]
  indexVectorDim := 1
  wf := scatter_S10000x512_S170000x1_S170000x512_1_0_0_1_wf
def scatter_S64x512_S10000x1_S10000x512_1_0_0_1 : ScatterDims S64x512 S10000x1 S10000x512 where
  updateWindowDims := [1]
  insertedWindowDims := [0]
  scatterDimsToOperandDims := [0]
  indexVectorDim := 1
  wf := scatter_S64x512_S10000x1_S10000x512_1_0_0_1_wf
def dot_S64x512_S512x10_S64x10_1_0_0_1_n_n : DotDims S64x512 S512x10 S64x10 where
  lhsContracting := [1]
  rhsContracting := [0]
  lhsNonContracting := [0]
  rhsNonContracting := [1]
  lhsBatch := []
  rhsBatch := []
  wf := dot_S64x512_S512x10_S64x10_1_0_0_1_n_n_wf

class Facts : Prop extends Facts₀ where

variable [Facts]
-- ==== Proof.KRun.lean ====
/-
  The idealized kernel's run with its RESULT named.

  The program is three launches of one blocked matrix product among stretches of host operations. Every weakly fair
  execution terminates without a fault; the buffer contents at the end are the fold of the program's segments over the
  launch memory: a stretch of host operations applies its operations in order, a launch leaves each of its arrays at
  what its blocks' write-backs leave and every other buffer as it was. The generated frame reads only the argument
  arrays off the last contents; here the result array is read off them as well, so that its value can be computed
  segment by segment.
-/
import proofs.«137244_j3710851744039_2_alg».proof.Proof.Gen.KernelIdeal.Frame

set_option maxRecDepth 16384

noncomputable section

namespace Cert.KernelIdeal.RunVal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the last
    segment boundary's contents and the argument arrays as launched. -/
theorem run_result : θ_run defs (onTc (τ := τ) (main (F := F))) ⟨m, fun _ => 0, ρ⟩ (fun r => ∀ c : Dev nD,
      r.2.mem ((c.tc : Thread nD τ).loc main_v99) = W14 m ρ c (Proc.devRef .tc main_v99)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v99 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c)⟩)

end Cert.KernelIdeal.RunVal

end
-- ==== Proof.LibPlainDot.lean ====
/-
  A plain matrix product read at an index, at the ideal values.

  For the dimension numbers of an `M × K` by `K × N` product with no batch axis (`DotDims.plain M K N`: the left
  operand contracted on its columns, the right on its rows), the operand indices at the result index `(r, c)` and the
  contraction position `k` are `(r, k)` and `(k, c)`. So both the host's `dot_general` and a kernel's `tpu.matmul`
  into a zero accumulator are, at `(r, c)`, the textbook sum `∑ k, X (r, k) · W (k, c)` over the extended reals —
  whatever the extents, the element formats of the operands and the precision or schedule keys.
-/
import Idealize.ShloMosaic.Lib.ValueIdx
import Idealize.ShloMosaic.PureOps.Ideal.Laws

noncomputable section

namespace Idealize.ShloMosaic.PlainDot

open Idealize.ShloMosaic Idealize.ShloMosaic.ValueIdx

variable {φ₁ φ₂ : FTy}

/-- The plain product contracts over one axis, -/
theorem contr_rank (M K N : Nat) : (DotDims.plain M K N).contr.rank = 1 := rfl
/-- of extent `K`. -/
theorem contr_size (M K N : Nat) : (DotDims.plain M K N).contr.size ⟨0, by rw [contr_rank]; omega⟩ = K := rfl

/-- The left operand's index at result index `(r, c)` and the `k`-th contraction position is `(r, k)`. -/
theorem lhsIdx_ix2 (M K N : Nat) (r : Fin M) (c : Fin N) (k : Fin K) :
    (DotDims.plain M K N).lhsIdx (ix2 r c) ((contrEquiv1 (DotDims.plain M K N) K rfl rfl).symm k) = ix2 r k :=
  funext fun a => Fin.ext (by
    match a with
    | ⟨0, _⟩ => rfl
    | ⟨1, _⟩ => exact contrEquiv1_symm_val (DotDims.plain M K N) K rfl rfl k)

/-- The right operand's is `(k, c)`. -/
theorem rhsIdx_ix2 (M K N : Nat) (r : Fin M) (c : Fin N) (k : Fin K) :
    (DotDims.plain M K N).rhsIdx (ix2 r c) ((contrEquiv1 (DotDims.plain M K N) K rfl rfl).symm k) = ix2 k c :=
  funext fun a => Fin.ext (by
    match a with
    | ⟨0, _⟩ => exact contrEquiv1_symm_val (DotDims.plain M K N) K rfl rfl k
    | ⟨1, _⟩ => rfl)

/-- The host's plain `dot_general` at `(r, c)`: the sum over `k` of `X (r, k) · W (k, c)`. -/
theorem dotGeneral_apply (M K N : Nat) (prec : Option ContractPrecision) (sched : HostSchedule)
    (X : FVec Ideal ⟨2, ![M, K]⟩ φ₁) (W : FVec Ideal ⟨2, ![K, N]⟩ φ₂) (r : Fin M) (c : Fin N) :
    FloatOps.dotGeneral (DotDims.plain M K N) prec sched X W (ix2 r c) = ∑ k : Fin K, X (ix2 r k) * W (ix2 k c) := by
  rw [Ideal.dotGeneral_apply, ← Equiv.sum_comp (contrEquiv1 (DotDims.plain M K N) K rfl rfl).symm]
  refine Finset.sum_congr rfl fun k _ => ?_
  rw [lhsIdx_ix2, rhsIdx_ix2]

/-- A kernel's plain `tpu.matmul` into the zero accumulator at `(r, c)`: the same sum. -/
theorem matmul_zero_apply (M K N : Nat) (prec : Option ContractPrecision)
    (X : FVec Ideal ⟨2, ![M, K]⟩ φ₁) (W : FVec Ideal ⟨2, ![K, N]⟩ φ₂) (r : Fin M) (c : Fin N) :
    FloatOps.matmul (DotDims.plain M K N) prec X W (constant ⟨2, ![M, N]⟩ .f32 0x00000000#32) (ix2 r c)
      = ∑ k : Fin K, X (ix2 r k) * W (ix2 k c) := by
  rw [Ideal.matmul_constant_zero_apply, ← Equiv.sum_comp (contrEquiv1 (DotDims.plain M K N) K rfl rfl).symm]
  refine Finset.sum_congr rfl fun k _ => ?_
  rw [lhsIdx_ix2, rhsIdx_ix2]

end Idealize.ShloMosaic.PlainDot

end
-- ==== Proof.LibWholeMat.lean ====
/-
  Whole-matrix functions over the extended reals, and the kernel's and the host's operations read as them.

  For any extents: the zero matrix Z, the matrix product mm (entry (r, c) the sum over k of a (r, k) · w (k, c)), plane k
  of a stack of matrices, row k of a matrix repeated down M rows (rowb), a vector repeated down M rows (vecb). A product
  with the zero matrix on either side is the zero matrix, with no finiteness assumed: over the extended reals x · 0 = 0
  for every x, the infinities included.
  Then each spelling of these in a printed program, as an equation between whole arrays (no index in sight), stated for
  any extents so that it applies to a printed operation by unification:
    • a vector unit's plain matrix product into the zero accumulator, its operands narrowed to bf16 or already bf16, and
      the host's plain dot_general, are mm (a change of float format is the identity on extended reals; the dimension
      record is any record equal to the plain one, which a printed plain record is by rfl);
    • a [1, M, N] block cut from a stack at offsets (o, 0, 0) and viewed as [M, N] is plane o;
    • a [1, N] block cut from a matrix at offsets (o, 0), broadcast to [M, N] by one broadcast (a kernel), or flattened
      and broadcast twice through [1, N] (the host), is rowb; a vector viewed as [1, N] and broadcast, or broadcast twice,
      is vecb; a vector flattened to [N] and viewed again as [1, N] is itself;
    • the dense all-zero constant, a kernel's splat of the zero word and the host's broadcast of the zero scalar are Z;
      the word 0x3F800000 is the real number one;
    • the host's 1 / (1 + exp (−x)), its ones splats of that word, is the logistic function, and its tanh the kernel's.
-/
import Idealize.ShloMosaic.Lib.ValueIdx
import Idealize.ShloMosaic.Lib.ValueLayout
import Idealize.ShloMosaic.Lib.Pipeline.Value
import Idealize.ShloMosaic.PureOps.Ideal.Laws
import proofs.«137244_j3710851744039_2_alg».proof.Proof.LibPlainDot

noncomputable section

open scoped BigOperators

namespace Cert.WholeMat

open Idealize.ShloMosaic Idealize.ShloMosaic.ValueIdx

/-- An M × N matrix of extended reals. -/
abbrev Mat (M N : Nat) : Type := FVec Ideal ⟨2, ![M, N]⟩ .f32

variable {M K N R : Nat}

/-- The zero matrix. -/
def Z (M N : Nat) : Mat M N := fun _ => 0

/-- The matrix product: entry (r, c) is the sum over k of a (r, k) · w (k, c). -/
def mm (a : Mat M K) (w : Mat K N) : Mat M N :=
  fun i => ∑ k : Fin K, a (ix2 ⟨(i 0).val, idx2_lt0 i⟩ k) * w (ix2 k ⟨(i 1).val, idx2_lt1 i⟩)

theorem mm_apply (a : Mat M K) (w : Mat K N) (r : Fin M) (c : Fin N) :
    mm a w (ix2 r c) = ∑ k : Fin K, a (ix2 r k) * w (ix2 k c) := rfl

/-- Plane k of a stack of R matrices. -/
def plane (W : FVec Ideal ⟨3, ![R, M, N]⟩ .f32) (k : Fin R) : Mat M N :=
  fun i => W (ix3 k ⟨(i 0).val, idx2_lt0 i⟩ ⟨(i 1).val, idx2_lt1 i⟩)

theorem plane_apply (W : FVec Ideal ⟨3, ![R, M, N]⟩ .f32) (k : Fin R) (r : Fin M) (c : Fin N) :
    plane W k (ix2 r c) = W (ix3 k r c) := rfl

/-- Row k of an R × N matrix, repeated down M rows. -/
def rowb (b : Mat R N) (k : Fin R) (M : Nat) : Mat M N := fun i => b (ix2 k ⟨(i 1).val, idx2_lt1 i⟩)

theorem rowb_apply (b : Mat R N) (k : Fin R) (r : Fin M) (c : Fin N) : rowb b k M (ix2 r c) = b (ix2 k c) := rfl

/-- A vector of length N, repeated down M rows. -/
def vecb (v : FVec Ideal ⟨1, ![N]⟩ .f32) (M : Nat) : Mat M N := fun i => v (ix1 ⟨(i 1).val, idx2_lt1 i⟩)

theorem vecb_apply (v : FVec Ideal ⟨1, ![N]⟩ .f32) (r : Fin M) (c : Fin N) : vecb v M (ix2 r c) = v (ix1 c) := rfl

/-- A product with the zero matrix on the right is zero: every term is x · 0 = 0, also for infinite x. -/
theorem mm_Z_right (a : Mat M K) : mm a (Z K N) = Z M N :=
  funext fun _ => Finset.sum_eq_zero fun _ _ => mul_zero _

/-- A product with the zero matrix on the left is zero. -/
theorem mm_Z_left (w : Mat K N) : mm (Z M K) w = Z M N :=
  funext fun _ => Finset.sum_eq_zero fun _ _ => zero_mul _

/-! ## Zero -/

/-- The dense all-zero constant is the zero matrix. -/
theorem constant_zero : constant (F := Ideal) ⟨2, ![M, N]⟩ .f32 0x00000000#32 = Z M N :=
  funext fun _ => Ideal.ofBits_zero_f32

/-- The kernel's splat of the all-zero word is the zero matrix. -/
theorem splat_zero : broadcast ⟨2, ![M, N]⟩ (Scalar.ofBits (F := Ideal) .f32 0x00000000#32) = Z M N :=
  funext fun _ => Ideal.ofBits_zero_f32

/-- The host's broadcast of the all-zero scalar is the zero matrix. -/
theorem hostSplat_zero (dims : Fin 0 → Fin 2) (h : (⟨0, ![]⟩ : Shape).BroadcastsInDim ⟨2, ![M, N]⟩ dims) :
    broadcastInDim ⟨2, ![M, N]⟩ dims h (constant (F := Ideal) ⟨0, ![]⟩ .f32 0x00000000#32) = Z M N :=
  funext fun _ => Ideal.ofBits_zero_f32

/-- The word 0x3F800000 is the real number one. -/
theorem one_word : Ideal.ofBits .f32 0x3F800000#32 = 1 := by
  simp [Ideal.ofBits, Ideal.ieee, -EReal.coe_mul]; norm_num

/-! ## Products -/

/-- A vector unit's plain product of narrowed operands into the zero accumulator is the matrix product. -/
theorem matmul_eq_mm (d : DotDims ⟨2, ![M, K]⟩ ⟨2, ![K, N]⟩ ⟨2, ![M, N]⟩) (hd : d = DotDims.plain M K N)
    (prec : Option ContractPrecision) (a : Mat M K) (w : Mat K N) (h1 : FTy.bf16.bits < FTy.f32.bits)
    (h2 : FTy.bf16.bits < FTy.f32.bits) :
    matmul d prec (truncf .bf16 a h1) (truncf .bf16 w h2) (constant ⟨2, ![M, N]⟩ .f32 0x00000000#32) = mm a w := by
  subst hd
  funext i
  obtain ⟨r, c, rfl⟩ : ∃ (r : Fin M) (c : Fin N), i = ix2 r c := ⟨i 0, i 1, eq_ix2 i⟩
  exact PlainDot.matmul_zero_apply M K N prec (truncf .bf16 a h1) (truncf .bf16 w h2) r c

/-- The same with the left operand already narrowed. -/
theorem matmul_eq_mm_left (d : DotDims ⟨2, ![M, K]⟩ ⟨2, ![K, N]⟩ ⟨2, ![M, N]⟩) (hd : d = DotDims.plain M K N)
    (prec : Option ContractPrecision) (a : FVec Ideal ⟨2, ![M, K]⟩ .bf16) (w : FVec Ideal ⟨2, ![K, N]⟩ .bf16) :
    matmul d prec a w (constant ⟨2, ![M, N]⟩ .f32 0x00000000#32) = mm (a : Mat M K) (w : Mat K N) := by
  subst hd
  funext i
  obtain ⟨r, c, rfl⟩ : ∃ (r : Fin M) (c : Fin N), i = ix2 r c := ⟨i 0, i 1, eq_ix2 i⟩
  exact PlainDot.matmul_zero_apply M K N prec a w r c

/-- The host's plain dot_general is the matrix product. -/
theorem dotGeneral_eq_mm (d : DotDims ⟨2, ![M, K]⟩ ⟨2, ![K, N]⟩ ⟨2, ![M, N]⟩) (hd : d = DotDims.plain M K N)
    (prec : Option ContractPrecision) (a : Mat M K) (w : Mat K N) :
    Host.dotGeneral d prec a w = mm a w := by
  subst hd
  funext i
  obtain ⟨r, c, rfl⟩ : ∃ (r : Fin M) (c : Fin N), i = ix2 r c := ⟨i 0, i 1, eq_ix2 i⟩
  exact PlainDot.dotGeneral_apply M K N prec .single a w r c

/-! ## Planes and rows -/

/-- Plane o of a stack, cut out and viewed as a matrix. -/
theorem slice_plane (W : FVec Ideal ⟨3, ![R, M, N]⟩ .f32) (o : Nat) (ho : o < R)
    (hs : (⟨3, ![R, M, N]⟩ : Shape).Slices ![o, 0, 0] ⟨3, ![1, M, N]⟩)
    (hc : (⟨3, ![1, M, N]⟩ : Shape).ShapeCasts ⟨2, ![M, N]⟩) :
    shapeCast ⟨2, ![M, N]⟩ (extractStridedSlice ⟨3, ![1, M, N]⟩ ![o, 0, 0] W hs) hc = plane W ⟨o, ho⟩ := by
  funext i
  obtain ⟨r, c, rfl⟩ : ∃ (r : Fin M) (c : Fin N), i = ix2 r c := ⟨i 0, i 1, eq_ix2 i⟩
  rw [shapeCast_1ab_ab_apply]
  refine extractStridedSlice_apply _ W hs _ (ix3 ⟨o, ho⟩ r c) fun a => ?_
  match a with
  | ⟨0, _⟩ => rfl
  | ⟨1, _⟩ => show r.val = 0 + r.val; omega
  | ⟨2, _⟩ => show c.val = 0 + c.val; omega

/-- A vector viewed as a one-row matrix and back. -/
theorem row_vec_row (x : Mat 1 N) (h1 : (⟨2, ![1, N]⟩ : Shape).ShapeCasts ⟨1, ![N]⟩)
    (h2 : (⟨1, ![N]⟩ : Shape).ShapeCasts ⟨2, ![1, N]⟩) :
    shapeCast ⟨2, ![1, N]⟩ (shapeCast ⟨1, ![N]⟩ x h1) h2 = x :=
  shapeCast_shapeCast x h1 h2

/-- Row o of a matrix, cut out and repeated down M rows by one broadcast. -/
theorem slice_rowb (b : Mat R N) (o : Nat) (ho : o < R)
    (hs : (⟨2, ![R, N]⟩ : Shape).Slices ![o, 0] ⟨2, ![1, N]⟩)
    (hb : (⟨2, ![1, N]⟩ : Shape).Broadcasts ⟨2, ![M, N]⟩) :
    broadcastTo ⟨2, ![M, N]⟩ (extractStridedSlice ⟨2, ![1, N]⟩ ![o, 0] b hs) hb = rowb b ⟨o, ho⟩ M := by
  funext i
  obtain ⟨r, c, rfl⟩ : ∃ (r : Fin M) (c : Fin N), i = ix2 r c := ⟨i 0, i 1, eq_ix2 i⟩
  rw [broadcastTo_1b_ab_apply]
  refine extractStridedSlice_apply _ b hs _ (ix2 ⟨o, ho⟩ c) fun a => ?_
  match a with
  | ⟨0, _⟩ => rfl
  | ⟨1, _⟩ => show c.val = 0 + c.val; omega

/-- Row o of a matrix, cut out, flattened to a vector, and repeated down M rows by the host's two broadcasts. -/
theorem hostSlice_rowb (b : Mat R N) (o : Nat) (ho : o < R)
    (hs : (⟨2, ![R, N]⟩ : Shape).Slices ![o, 0] ⟨2, ![1, N]⟩)
    (hc : (⟨2, ![1, N]⟩ : Shape).ShapeCasts ⟨1, ![N]⟩)
    (d1 : Fin 1 → Fin 2) (hd1 : d1 = ![1]) (hb1 : (⟨1, ![N]⟩ : Shape).BroadcastsInDim ⟨2, ![1, N]⟩ d1)
    (d2 : Fin 2 → Fin 2) (hd2 : d2 = ![0, 1]) (hb2 : (⟨2, ![1, N]⟩ : Shape).BroadcastsInDim ⟨2, ![M, N]⟩ d2) :
    broadcastInDim ⟨2, ![M, N]⟩ d2 hb2 (broadcastInDim ⟨2, ![1, N]⟩ d1 hb1
      (shapeCast ⟨1, ![N]⟩ (extractStridedSlice ⟨2, ![1, N]⟩ ![o, 0] b hs) hc)) = rowb b ⟨o, ho⟩ M := by
  subst hd1 hd2
  funext i
  obtain ⟨r, c, rfl⟩ : ∃ (r : Fin M) (c : Fin N), i = ix2 r c := ⟨i 0, i 1, eq_ix2 i⟩
  rw [broadcastInDim_apply _ hb2 _ (ix2 r c) (ix2 (0 : Fin 1) c) (fun a => by
    match a with
    | ⟨0, _⟩ => rfl
    | ⟨1, _⟩ =>
      show c.val = if N = 1 then 0 else c.val
      split
      · have := c.isLt; omega
      · rfl)]
  rw [broadcastInDim_apply _ hb1 _ (ix2 (0 : Fin 1) c) (ix1 c) (fun a => by
    match a with
    | ⟨0, _⟩ =>
      show c.val = if N = 1 then 0 else c.val
      split
      · have := c.isLt; omega
      · rfl)]
  rw [shapeCast_1a_a_apply]
  refine extractStridedSlice_apply _ b hs _ (ix2 ⟨o, ho⟩ c) fun a => ?_
  match a with
  | ⟨0, _⟩ => rfl
  | ⟨1, _⟩ => show c.val = 0 + c.val; omega

/-- A vector viewed as a one-row matrix and repeated down M rows (the kernel's bias vector). -/
theorem vec_rowb (v : FVec Ideal ⟨1, ![N]⟩ .f32) (hc : (⟨1, ![N]⟩ : Shape).ShapeCasts ⟨2, ![1, N]⟩)
    (hb : (⟨2, ![1, N]⟩ : Shape).Broadcasts ⟨2, ![M, N]⟩) :
    broadcastTo ⟨2, ![M, N]⟩ (shapeCast ⟨2, ![1, N]⟩ v hc) hb = vecb v M := by
  funext i
  obtain ⟨r, c, rfl⟩ : ∃ (r : Fin M) (c : Fin N), i = ix2 r c := ⟨i 0, i 1, eq_ix2 i⟩
  rw [broadcastTo_1b_ab_apply, shapeCast_a_1a_apply]
  rfl

/-- A vector repeated down M rows by the host's two broadcasts (the reference's bias vector). -/
theorem hostVec_rowb (v : FVec Ideal ⟨1, ![N]⟩ .f32)
    (d1 : Fin 1 → Fin 2) (hd1 : d1 = ![1]) (hb1 : (⟨1, ![N]⟩ : Shape).BroadcastsInDim ⟨2, ![1, N]⟩ d1)
    (d2 : Fin 2 → Fin 2) (hd2 : d2 = ![0, 1]) (hb2 : (⟨2, ![1, N]⟩ : Shape).BroadcastsInDim ⟨2, ![M, N]⟩ d2) :
    broadcastInDim ⟨2, ![M, N]⟩ d2 hb2 (broadcastInDim ⟨2, ![1, N]⟩ d1 hb1 v) = vecb v M := by
  subst hd1 hd2
  funext i
  obtain ⟨r, c, rfl⟩ : ∃ (r : Fin M) (c : Fin N), i = ix2 r c := ⟨i 0, i 1, eq_ix2 i⟩
  rw [broadcastInDim_apply _ hb2 _ (ix2 r c) (ix2 (0 : Fin 1) c) (fun a => by
    match a with
    | ⟨0, _⟩ => rfl
    | ⟨1, _⟩ =>
      show c.val = if N = 1 then 0 else c.val
      split
      · have := c.isLt; omega
      · rfl)]
  rw [broadcastInDim_apply _ hb1 _ (ix2 (0 : Fin 1) c) (ix1 c) (fun a => by
    match a with
    | ⟨0, _⟩ =>
      show c.val = if N = 1 then 0 else c.val
      split
      · have := c.isLt; omega
      · rfl)]
  rfl

/-! ## The host's transcendentals -/

/-- The host's 1 / (1 + exp (−x)), its ones splats of the word of 1.0, is the logistic function. -/
theorem hostLogistic (x : Mat M N) (dims : Fin 0 → Fin 2) (h h' : (⟨0, ![]⟩ : Shape).BroadcastsInDim ⟨2, ![M, N]⟩ dims) :
    Host.divf (broadcastInDim ⟨2, ![M, N]⟩ dims h (constant (F := Ideal) ⟨0, ![]⟩ .f32 0x3F800000#32))
      (addf (broadcastInDim ⟨2, ![M, N]⟩ dims h' (constant (F := Ideal) ⟨0, ![]⟩ .f32 0x3F800000#32)) (Host.exp (Host.negf x)))
      = logistic x := by
  funext i
  show Ideal.div (Ideal.ofBits .f32 0x3F800000#32) (Ideal.ofBits .f32 0x3F800000#32 + Ideal.exp (-(x i))) = Ideal.logistic (x i)
  rw [one_word]
  rfl

/-- The host's tanh is the kernel's. -/
theorem hostTanh (x : Mat M N) : Host.tanh x = tanh x := rfl

end Cert.WholeMat

end
-- ==== Proof.HostA.lean ====
/-
  The host operations before the first launch, read at the ideal values.

  From the edge list the program builds, once, the source and target index vectors with the self-loops appended
  (each of length E + N), the degree of every node as a scatter-add of ones over the targets, its inverse square
  root, and the edge weights 1/sqrt(deg(source)) · 1/sqrt(deg(target)) as a column; it narrows the three weight
  matrices to bf16 — the identity on extended reals — and cuts the first one out. The reference program builds the
  same vectors by the same operations in the same order, so each of these arrays IS the reference's stage of the
  same name, as a function of the argument arrays; every argument array is left as it was.
-/
import proofs.«137244_j3710851744039_2_alg».proof.Proof.Gen.KernelIdeal.Launch
import proofs.«137244_j3710851744039_2_alg».proof.Proof.Gen.ReferenceIdeal.Read
import Idealize.ShloMosaic.Lib.StableHlo.Run

noncomputable section

namespace Cert.KernelIdeal.HostVal

open Cert.KernelIdeal Cert.KernelIdeal.Gen Idealize.ShloMosaic Idealize.ShloMosaic.TcCoe Idealize.SL.Sem Idealize.ShloMosaic.StableHlo

variable (V : Valuation τ sig (Elt Ideal))

/-- What the later stretches read of the contents besides the running activations: the source and target index
    vectors, the edge-weight column, the narrowed weight stack, and the arguments used after the first launch. -/
structure Carried (V : Valuation τ sig (Elt Ideal)) (x1 : (⟨S2x160000, .i32⟩ : BufTy).Contents (Elt Ideal)) (x2 : (⟨S10000, .i32⟩ : BufTy).Contents (Elt Ideal)) (x3 : (⟨S3x512x512, .f32⟩ : BufTy).Contents (Elt Ideal)) (x4 : (⟨S3x512, .f32⟩ : BufTy).Contents (Elt Ideal)) (x5 : (⟨S512x10, .f32⟩ : BufTy).Contents (Elt Ideal)) (x6 : (⟨S10, .f32⟩ : BufTy).Contents (Elt Ideal)) : Prop where
  row : V (Proc.devRef .tc main_v5) = Cert.ReferenceIdeal.Read.val_main_v3 (F := Ideal) x1
  col : V (Proc.devRef .tc main_v6) = Cert.ReferenceIdeal.Read.val_main_v6 (F := Ideal) x1
  norm : V (Proc.devRef .tc main_v27) = Cert.ReferenceIdeal.Read.val_main_v27 (F := Ideal) x1
  wts : V (Proc.devRef .tc main_v28) = truncf (F := Ideal) .bf16 x3 bitsLt_bf16_f32
  a2 : V (Proc.devRef .tc main_arg2) = x2
  a4 : V (Proc.devRef .tc main_arg4) = x4
  a5 : V (Proc.devRef .tc main_arg5) = x5
  a6 : V (Proc.devRef .tc main_arg6) = x6

/-- After the first stretch the index vectors, the edge weights and the narrowed weights are the reference's stages
    of the argument arrays, and the arguments are untouched. -/
theorem carried_first : Carried (after (hostOps0 (F := Ideal)) V) (V (Proc.devRef .tc main_arg1)) (V (Proc.devRef .tc main_arg2)) (V (Proc.devRef .tc main_arg3))
    (V (Proc.devRef .tc main_arg4)) (V (Proc.devRef .tc main_arg5)) (V (Proc.devRef .tc main_arg6)) where
  row := by dsimp only [hostOps0]; after_results_simp; rfl
  col := by dsimp only [hostOps0]; after_results_simp; rfl
  norm := by dsimp only [hostOps0]; after_results_simp; rfl
  wts := by dsimp only [hostOps0]; after_results_simp; try rfl
  a2 := by dsimp only [hostOps0]; after_results_simp
  a4 := by dsimp only [hostOps0]; after_results_simp
  a5 := by dsimp only [hostOps0]; after_results_simp
  a6 := by dsimp only [hostOps0]; after_results_simp

/-- The node features are untouched by the first stretch. -/
theorem first_arg0 : after (hostOps0 (F := Ideal)) V (Proc.devRef .tc main_arg0) = V (Proc.devRef .tc main_arg0) := by
  dsimp only [hostOps0]; after_results_simp

/-- The first layer's weight matrix, as the first launch finds it, is the reference's first plane of the weight
    stack (the narrowing to bf16 is the identity on extended reals). -/
theorem first_w0 : (after (hostOps0 (F := Ideal)) V (Proc.devRef .tc main_v30) : S512x512.Idx → EReal)
    = Cert.ReferenceIdeal.Read.val_main_v29 (F := Ideal) (V (Proc.devRef .tc main_arg3)) := by
  dsimp only [hostOps0]; after_results_simp; rfl

end Cert.KernelIdeal.HostVal
end
-- ==== Proof.HostB.lean ====
/-
  The host operations between launch 0 and launch 1, read at the ideal values.

  Given the product h = x · W of the launch before, the stretch gathers the rows of h at the edges' sources, scales
  each by its edge weight, scatter-adds them at the edges' targets, adds the layer's bias row and clamps at zero:
  the next activations. It also cuts the next layer's weight matrix out of the narrowed stack. These are the
  reference's operations in the reference's order, so when the product, the index vectors and the weights the stretch
  reads are the reference's stages, what it leaves is the reference's next stage, as a function of the arguments.
-/
import proofs.«137244_j3710851744039_2_alg».proof.Proof.Gen.KernelIdeal.Launch
import proofs.«137244_j3710851744039_2_alg».proof.Proof.Gen.ReferenceIdeal.Read
import Idealize.ShloMosaic.Lib.StableHlo.Run
import proofs.«137244_j3710851744039_2_alg».proof.Proof.HostA

noncomputable section

namespace Cert.KernelIdeal.HostVal

open Cert.KernelIdeal Cert.KernelIdeal.Gen Idealize.ShloMosaic Idealize.ShloMosaic.TcCoe Idealize.SL.Sem Idealize.ShloMosaic.StableHlo

variable (V : Valuation τ sig (Elt Ideal))

/-- The contents after the three stretches between the two launches (the aggregation, the clamp at zero, the cut of the
    next weight matrix). -/
abbrev between0 (V : Valuation τ sig (Elt Ideal)) : Valuation τ sig (Elt Ideal) :=
  after (hostOps1_2 (F := Ideal)) (after (hostOps1_1 (F := Ideal)) (after (hostOps1 (F := Ideal)) V))

/-- The carried arrays pass through the stretch untouched: none of its operations writes them. -/
theorem carried_between0 (x1 : (⟨S2x160000, .i32⟩ : BufTy).Contents (Elt Ideal)) (x2 : (⟨S10000, .i32⟩ : BufTy).Contents (Elt Ideal)) (x3 : (⟨S3x512x512, .f32⟩ : BufTy).Contents (Elt Ideal)) (x4 : (⟨S3x512, .f32⟩ : BufTy).Contents (Elt Ideal)) (x5 : (⟨S512x10, .f32⟩ : BufTy).Contents (Elt Ideal)) (x6 : (⟨S10, .f32⟩ : BufTy).Contents (Elt Ideal))
    (h : Carried V x1 x2 x3 x4 x5 x6) : Carried (between0 V) x1 x2 x3 x4 x5 x6 where
  row := (by dsimp only [between0, hostOps1, hostOps1_1, hostOps1_2]; after_results_simp : between0 V (Proc.devRef .tc main_v5) = V (Proc.devRef .tc main_v5)).trans h.row
  col := (by dsimp only [between0, hostOps1, hostOps1_1, hostOps1_2]; after_results_simp : between0 V (Proc.devRef .tc main_v6) = V (Proc.devRef .tc main_v6)).trans h.col
  norm := (by dsimp only [between0, hostOps1, hostOps1_1, hostOps1_2]; after_results_simp : between0 V (Proc.devRef .tc main_v27) = V (Proc.devRef .tc main_v27)).trans h.norm
  wts := (by dsimp only [between0, hostOps1, hostOps1_1, hostOps1_2]; after_results_simp : between0 V (Proc.devRef .tc main_v28) = V (Proc.devRef .tc main_v28)).trans h.wts
  a2 := (by dsimp only [between0, hostOps1, hostOps1_1, hostOps1_2]; after_results_simp : between0 V (Proc.devRef .tc main_arg2) = V (Proc.devRef .tc main_arg2)).trans h.a2
  a4 := (by dsimp only [between0, hostOps1, hostOps1_1, hostOps1_2]; after_results_simp : between0 V (Proc.devRef .tc main_arg4) = V (Proc.devRef .tc main_arg4)).trans h.a4
  a5 := (by dsimp only [between0, hostOps1, hostOps1_1, hostOps1_2]; after_results_simp : between0 V (Proc.devRef .tc main_arg5) = V (Proc.devRef .tc main_arg5)).trans h.a5
  a6 := (by dsimp only [between0, hostOps1, hostOps1_1, hostOps1_2]; after_results_simp : between0 V (Proc.devRef .tc main_arg6) = V (Proc.devRef .tc main_arg6)).trans h.a6

/-- The next activations: the aggregated, biased and clamped product is the reference's stage. -/
theorem acts_between0 (x0 : (⟨S10000x512, .f32⟩ : BufTy).Contents (Elt Ideal)) (x1 : (⟨S2x160000, .i32⟩ : BufTy).Contents (Elt Ideal)) (x2 : (⟨S10000, .i32⟩ : BufTy).Contents (Elt Ideal)) (x3 : (⟨S3x512x512, .f32⟩ : BufTy).Contents (Elt Ideal)) (x4 : (⟨S3x512, .f32⟩ : BufTy).Contents (Elt Ideal)) (x5 : (⟨S512x10, .f32⟩ : BufTy).Contents (Elt Ideal)) (x6 : (⟨S10, .f32⟩ : BufTy).Contents (Elt Ideal))
    (h : Carried V x1 x2 x3 x4 x5 x6)
    (hp : V (Proc.devRef .tc main_v31) = Cert.ReferenceIdeal.Read.val_main_v30 (F := Ideal) x0 x3) :
    between0 V (Proc.devRef .tc main_v49) = Cert.ReferenceIdeal.Read.val_main_v48 (F := Ideal) x0 x1 x3 x4 := by
  dsimp only [between0, hostOps1, hostOps1_1, hostOps1_2]
  after_results_simp
  rw [hp, h.row, h.col, h.norm, h.a4]
  rfl

/-- The next layer's weight matrix is the reference's second plane of the weight stack. -/
theorem weights_between0 (x1 : (⟨S2x160000, .i32⟩ : BufTy).Contents (Elt Ideal)) (x2 : (⟨S10000, .i32⟩ : BufTy).Contents (Elt Ideal)) (x3 : (⟨S3x512x512, .f32⟩ : BufTy).Contents (Elt Ideal)) (x4 : (⟨S3x512, .f32⟩ : BufTy).Contents (Elt Ideal)) (x5 : (⟨S512x10, .f32⟩ : BufTy).Contents (Elt Ideal)) (x6 : (⟨S10, .f32⟩ : BufTy).Contents (Elt Ideal))
    (h : Carried V x1 x2 x3 x4 x5 x6) :
    (between0 V (Proc.devRef .tc main_v51) : S512x512.Idx → EReal) = Cert.ReferenceIdeal.Read.val_main_v50 (F := Ideal) x3 := by
  dsimp only [between0, hostOps1, hostOps1_1, hostOps1_2]
  after_results_simp
  rw [h.wts]
  rfl

end Cert.KernelIdeal.HostVal
end
-- ==== Proof.HostC.lean ====
/-
  The host operations between launch 1 and launch 2, read at the ideal values.

  Given the product h = x · W of the launch before, the stretch gathers the rows of h at the edges' sources, scales
  each by its edge weight, scatter-adds them at the edges' targets, adds the layer's bias row and clamps at zero:
  the next activations. It also cuts the next layer's weight matrix out of the narrowed stack. These are the
  reference's operations in the reference's order, so when the product, the index vectors and the weights the stretch
  reads are the reference's stages, what it leaves is the reference's next stage, as a function of the arguments.
-/
import proofs.«137244_j3710851744039_2_alg».proof.Proof.Gen.KernelIdeal.Launch
import proofs.«137244_j3710851744039_2_alg».proof.Proof.Gen.ReferenceIdeal.Read
import Idealize.ShloMosaic.Lib.StableHlo.Run
import proofs.«137244_j3710851744039_2_alg».proof.Proof.HostA

noncomputable section

namespace Cert.KernelIdeal.HostVal

open Cert.KernelIdeal Cert.KernelIdeal.Gen Idealize.ShloMosaic Idealize.ShloMosaic.TcCoe Idealize.SL.Sem Idealize.ShloMosaic.StableHlo

variable (V : Valuation τ sig (Elt Ideal))

/-- The contents after the three stretches between the two launches (the aggregation, the clamp at zero, the cut of the
    next weight matrix). -/
abbrev between1 (V : Valuation τ sig (Elt Ideal)) : Valuation τ sig (Elt Ideal) :=
  after (hostOps2_2 (F := Ideal)) (after (hostOps2_1 (F := Ideal)) (after (hostOps2 (F := Ideal)) V))

/-- The carried arrays pass through the stretch untouched: none of its operations writes them. -/
theorem carried_between1 (x1 : (⟨S2x160000, .i32⟩ : BufTy).Contents (Elt Ideal)) (x2 : (⟨S10000, .i32⟩ : BufTy).Contents (Elt Ideal)) (x3 : (⟨S3x512x512, .f32⟩ : BufTy).Contents (Elt Ideal)) (x4 : (⟨S3x512, .f32⟩ : BufTy).Contents (Elt Ideal)) (x5 : (⟨S512x10, .f32⟩ : BufTy).Contents (Elt Ideal)) (x6 : (⟨S10, .f32⟩ : BufTy).Contents (Elt Ideal))
    (h : Carried V x1 x2 x3 x4 x5 x6) : Carried (between1 V) x1 x2 x3 x4 x5 x6 where
  row := (by dsimp only [between1, hostOps2, hostOps2_1, hostOps2_2]; after_results_simp : between1 V (Proc.devRef .tc main_v5) = V (Proc.devRef .tc main_v5)).trans h.row
  col := (by dsimp only [between1, hostOps2, hostOps2_1, hostOps2_2]; after_results_simp : between1 V (Proc.devRef .tc main_v6) = V (Proc.devRef .tc main_v6)).trans h.col
  norm := (by dsimp only [between1, hostOps2, hostOps2_1, hostOps2_2]; after_results_simp : between1 V (Proc.devRef .tc main_v27) = V (Proc.devRef .tc main_v27)).trans h.norm
  wts := (by dsimp only [between1, hostOps2, hostOps2_1, hostOps2_2]; after_results_simp : between1 V (Proc.devRef .tc main_v28) = V (Proc.devRef .tc main_v28)).trans h.wts
  a2 := (by dsimp only [between1, hostOps2, hostOps2_1, hostOps2_2]; after_results_simp : between1 V (Proc.devRef .tc main_arg2) = V (Proc.devRef .tc main_arg2)).trans h.a2
  a4 := (by dsimp only [between1, hostOps2, hostOps2_1, hostOps2_2]; after_results_simp : between1 V (Proc.devRef .tc main_arg4) = V (Proc.devRef .tc main_arg4)).trans h.a4
  a5 := (by dsimp only [between1, hostOps2, hostOps2_1, hostOps2_2]; after_results_simp : between1 V (Proc.devRef .tc main_arg5) = V (Proc.devRef .tc main_arg5)).trans h.a5
  a6 := (by dsimp only [between1, hostOps2, hostOps2_1, hostOps2_2]; after_results_simp : between1 V (Proc.devRef .tc main_arg6) = V (Proc.devRef .tc main_arg6)).trans h.a6

/-- The next activations: the aggregated, biased and clamped product is the reference's stage. -/
theorem acts_between1 (x0 : (⟨S10000x512, .f32⟩ : BufTy).Contents (Elt Ideal)) (x1 : (⟨S2x160000, .i32⟩ : BufTy).Contents (Elt Ideal)) (x2 : (⟨S10000, .i32⟩ : BufTy).Contents (Elt Ideal)) (x3 : (⟨S3x512x512, .f32⟩ : BufTy).Contents (Elt Ideal)) (x4 : (⟨S3x512, .f32⟩ : BufTy).Contents (Elt Ideal)) (x5 : (⟨S512x10, .f32⟩ : BufTy).Contents (Elt Ideal)) (x6 : (⟨S10, .f32⟩ : BufTy).Contents (Elt Ideal))
    (h : Carried V x1 x2 x3 x4 x5 x6)
    (hp : V (Proc.devRef .tc main_v52) = Cert.ReferenceIdeal.Read.val_main_v51 (F := Ideal) x0 x1 x3 x4) :
    between1 V (Proc.devRef .tc main_v70) = Cert.ReferenceIdeal.Read.val_main_v69 (F := Ideal) x0 x1 x3 x4 := by
  dsimp only [between1, hostOps2, hostOps2_1, hostOps2_2]
  after_results_simp
  rw [hp, h.row, h.col, h.norm, h.a4]
  rfl

/-- The next layer's weight matrix is the reference's third plane of the weight stack. -/
theorem weights_between1 (x1 : (⟨S2x160000, .i32⟩ : BufTy).Contents (Elt Ideal)) (x2 : (⟨S10000, .i32⟩ : BufTy).Contents (Elt Ideal)) (x3 : (⟨S3x512x512, .f32⟩ : BufTy).Contents (Elt Ideal)) (x4 : (⟨S3x512, .f32⟩ : BufTy).Contents (Elt Ideal)) (x5 : (⟨S512x10, .f32⟩ : BufTy).Contents (Elt Ideal)) (x6 : (⟨S10, .f32⟩ : BufTy).Contents (Elt Ideal))
    (h : Carried V x1 x2 x3 x4 x5 x6) :
    (between1 V (Proc.devRef .tc main_v72) : S512x512.Idx → EReal) = Cert.ReferenceIdeal.Read.val_main_v71 (F := Ideal) x3 := by
  dsimp only [between1, hostOps2, hostOps2_1, hostOps2_2]
  after_results_simp
  rw [h.wts]
  rfl

end Cert.KernelIdeal.HostVal
end
-- ==== Proof.HostD.lean ====
/-
  The host operations after the last launch, read at the ideal values.

  Given the last product, the stretch aggregates it over the edges, adds the bias row and clamps at zero as the
  earlier layers do; then it sums the node rows of each graph (a scatter-add at the graph index of every node),
  multiplies the pooled rows by the classifier matrix, adds its bias, and takes the logarithm of the softmax along each
  row (the row's maximum subtracted first). These are the reference's operations in the reference's order, so
  when the product, the index vectors and the weights are the reference's stages, the result array is the reference's
  result, as a function of the arguments.
-/
import proofs.«137244_j3710851744039_2_alg».proof.Proof.Gen.KernelIdeal.Launch
import proofs.«137244_j3710851744039_2_alg».proof.Proof.Gen.ReferenceIdeal.Read
import Idealize.ShloMosaic.Lib.StableHlo.Run
import proofs.«137244_j3710851744039_2_alg».proof.Proof.HostA

noncomputable section

namespace Cert.KernelIdeal.HostVal

open Cert.KernelIdeal Cert.KernelIdeal.Gen Idealize.ShloMosaic Idealize.ShloMosaic.TcCoe Idealize.SL.Sem Idealize.ShloMosaic.StableHlo

variable (V : Valuation τ sig (Elt Ideal))

/-- The contents after the four stretches that follow the last launch. -/
abbrev afterLast (V : Valuation τ sig (Elt Ideal)) : Valuation τ sig (Elt Ideal) :=
  after (hostOps3_3 (F := Ideal)) (after (hostOps3_2 (F := Ideal)) (after (hostOps3_1 (F := Ideal)) (after (hostOps3 (F := Ideal)) V)))

/-- The result array is the reference's result stage. -/
theorem result_afterLast (x0 : (⟨S10000x512, .f32⟩ : BufTy).Contents (Elt Ideal)) (x1 : (⟨S2x160000, .i32⟩ : BufTy).Contents (Elt Ideal)) (x2 : (⟨S10000, .i32⟩ : BufTy).Contents (Elt Ideal)) (x3 : (⟨S3x512x512, .f32⟩ : BufTy).Contents (Elt Ideal)) (x4 : (⟨S3x512, .f32⟩ : BufTy).Contents (Elt Ideal)) (x5 : (⟨S512x10, .f32⟩ : BufTy).Contents (Elt Ideal)) (x6 : (⟨S10, .f32⟩ : BufTy).Contents (Elt Ideal))
    (h : Carried V x1 x2 x3 x4 x5 x6)
    (hp : V (Proc.devRef .tc main_v73) = Cert.ReferenceIdeal.Read.val_main_v72 (F := Ideal) x0 x1 x3 x4) :
    afterLast V (Proc.devRef .tc main_v99) = Cert.ReferenceIdeal.Read.val_main_v98 (F := Ideal) x0 x1 x2 x3 x4 x5 x6 := by
  dsimp only [afterLast, hostOps3, hostOps3_1, hostOps3_2, hostOps3_3]
  after_results_simp
  rw [hp, h.row, h.col, h.norm, h.a4, h.a2, h.a5, h.a6]
  rfl

end Cert.KernelIdeal.HostVal
end
-- ==== Proof.Region0.lean ====
/-
  The first launch of the blocked matrix product, read as one matrix product.

  The launch multiplies a 10000 × 512 matrix A (the array the launch finds in its left operand) by a 512 × 512 matrix W
  (its right operand) into a 10000 × 512 result, over the extended reals. It does so in ten steps. At step t (t = 0, …, 9)
  the body is given rows 1000·t … 1000·t + 999 of A, a 1000 × 512 block, and all of W; it forms the product of that block
  with W, again 1000 × 512, and the product is written back to rows 1000·t … 1000·t + 999 of the result.

  Entry (r, j) of a matrix product is the sum over k of (row r of the left factor at k) · (column j of the right factor at
  k): it depends on ONE row of the left factor and ONE column of the right. Row i of the block handed over at step t is row
  1000·t + i of A, and W is handed over whole, so entry (i, j) of the block's product with W is, term by term, the same sum
  as entry (1000·t + i, j) of A · W. No finiteness is needed: the two sums have identical terms, infinite or not.
  So what step t writes back is rows 1000·t … 1000·t + 999 of the ONE matrix A · W; every row r < 10000 belongs to the block
  of step r / 1000; hence after the ten steps the result array is A · W, whatever it held before.
-/
import proofs.«137244_j3710851744039_2_alg».proof.Proof.Gen.KernelIdeal.Frame
import proofs.«137244_j3710851744039_2_alg».proof.Proof.LibWholeMat
import Idealize.ShloMosaic.Lib.Pipeline.Value

set_option maxRecDepth 16384

noncomputable section

namespace Cert.KernelIdeal.RegionVal

open Cert.KernelIdeal Cert.KernelIdeal.Gen Idealize.ShloMosaic Idealize.ShloMosaic.TcCoe Idealize.SL.Sem
open Idealize.ShloMosaic.Pipeline (Dat)
open Idealize.ShloMosaic.ValueIdx
open Cert.WholeMat (Mat mm)
open scoped BigOperators

variable (V : (c : Dev nD) → (b : Ref sig .tc) → Buf (Elt Ideal) ((c : Thread nD τ).loc b))

/-- The offsets (0, 0) of an access to a whole block are the all-zero offsets. -/
theorem zeros0 : (![0, 0] : Fin 2 → Nat) = fun _ => 0 := funext fun a => by fin_cases a <;> rfl

/-- What the body stores is the product of its two blocks: the left block is narrowed to bf16, the right block is passed through a reshape to its own shape, and the two are
    multiplied into an all-zero accumulator. Over the extended reals the narrowing is the identity and the reshape to the same shape
    changes nothing, so what is stored is the plain product of the two blocks. -/
theorem payload0_eq_mm (x0 : Vec Ideal S1000x512 .f32) (x1 : Vec Ideal S512x512 .bf16) :
    k0_pay1 (F := Ideal) x0 x1 = mm (M := 1000) (K := 512) (N := 512) x0 x1 := by
  unfold k0_pay1
  rw [shapeCast_self]
  exact Cert.WholeMat.matmul_eq_mm_left _ rfl none (truncf .bf16 x0 _) x1

/-- Where the blocks sit, step by step: at step t the left operand's block is block (t, 0) of 1000 × 512 blocks (rows
    1000·t onward, all columns), the right operand's is block (0, 0) (the whole matrix), and the result's is block (t, 0). -/
theorem index_maps0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- An entry of a product depends on one row of the left factor and one column of the right. If row (j 0) of a
    1000 × 512 matrix x0 is row (i 0) of A, and column (j 1) of x1 is column (i 1) of B, then entry j of x0 · x1 is entry i
    of A · B: the two sums over k have the same terms. -/
theorem mm_block0 (A : Mat 10000 512) (B : Mat 512 512) (x0 : Mat 1000 512) (x1 : Mat 512 512)
    (j : S1000x512.Idx) (i : S10000x512.Idx)
    (h0 : ∀ k : Fin 512, x0 (ix2 ⟨(j 0).val, idx2_lt0 j⟩ k) = A (ix2 ⟨(i 0).val, idx2_lt0 i⟩ k))
    (h1 : ∀ k : Fin 512, x1 (ix2 k ⟨(j 1).val, idx2_lt1 j⟩) = B (ix2 k ⟨(i 1).val, idx2_lt1 i⟩)) :
    mm x0 x1 j = mm A B i := by
  unfold Cert.WholeMat.mm
  exact Finset.sum_congr rfl fun k _ => by rw [h0 k, h1 k]

/-- What step t writes back is block t of the whole product: entry (i, j) of (rows 1000·t … of A) · W is entry
    (1000·t + i, j) of A · W. An element of a block sits in its array, on each axis, at the block's index times the block's
    extent plus its coordinate inside the block; with the block indices above, row i of the left block is row 1000·t + i of A,
    the same row the result's block puts entry (i, j) in, and column j of the right block is column j of W. -/
theorem flushed0_eq (c : Dev nD) (t : Fin cfg0.N) :
    (dat0 (F := Ideal) V c).flushed 2 t
      = ((cfg0.win 2).blk t).view.read (Elt Ideal) (mm (M := 10000) (K := 512) (N := 512) (V c main_arg0) (V c main_v30)) := by
  show (cfg0.win 2).cut (grid0.coords t) ((dat0 V c).after 2 t) = _
  rw [after0_2]
  unfold out0_2
  rw [View.canon_unit_zero zeros0]
  simp only [View.ld_unit_zero (S := S1000x512) zeros0, View.ld_unit_zero (S := S512x512) zeros0]
  rw [payload0_eq_mm]
  obtain ⟨e0, e1, e2, e3, e4, e5⟩ := index_maps0 t
  funext j
  show mm (M := 1000) (K := 512) (N := 512) (iblk0 V c 0 t) (iblk0 V c 1 t) j
    = mm (M := 10000) (K := 512) (N := 512) (V c main_arg0) (V c main_v30) (((cfg0.win 2).blk t).view.emb j)
  refine mm_block0 (V c main_arg0) (V c main_v30) _ _ j (((cfg0.win 2).blk t).view.emb j) (fun k => ?_) (fun k => ?_)
  · -- row (j 0) of the left block is row 1000·t + (j 0) of A
    show V c main_arg0 (((cfg0.win 0).blk t).view.emb (ix2 ⟨(j 0).val, idx2_lt0 j⟩ k)) = _
    refine congrArg _ (funext fun a => Fin.ext ?_)
    match a with
    | ⟨0, _⟩ =>
      show win0_0.index t (0 : Fin 2) * 1000 + 1 * (j 0).val = win0_2.index t (0 : Fin 2) * 1000 + 1 * (j 0).val
      omega
    | ⟨1, _⟩ =>
      show win0_0.index t (1 : Fin 2) * 512 + 1 * k.val = k.val
      omega
  · -- column (j 1) of the right block is column (j 1) of W
    show V c main_v30 (((cfg0.win 1).blk t).view.emb (ix2 k ⟨(j 1).val, idx2_lt1 j⟩)) = _
    refine congrArg _ (funext fun a => Fin.ext ?_)
    match a with
    | ⟨0, _⟩ =>
      show win0_1.index t (0 : Fin 2) * 512 + 1 * k.val = k.val
      omega
    | ⟨1, _⟩ =>
      show win0_1.index t (1 : Fin 2) * 512 + 1 * (j 1).val = win0_2.index t (1 : Fin 2) * 512 + 1 * (j 1).val
      omega

/-- An index of the result array lies in step t's block iff, on each axis, its coordinate lies in the block's range:
    from the block's index times the block's extent, for one extent. -/
theorem mem_block0 (t : Fin cfg0.N) (i : S10000x512.Idx) :
    i ∈ ((cfg0.win 2).blk t).view.set ↔ ∀ a : Fin 2, win0_2.index t a * S1000x512.size a ≤ (i a).val
      ∧ (i a).val < win0_2.index t a * S1000x512.size a + S1000x512.size a := by
  show i ∈ ((View.whole main_v31).slice (win0_2.rect t)).set ↔ _
  rw [View.set_slice_whole, Rect.mem_set_unit]
  exact Iff.rfl

/-- The ten blocks cover the result array: entry (r, j) lies in the block of step r / 1000, whose rows are
    1000·(r / 1000) … 1000·(r / 1000) + 999 and whose columns are all 512. -/
theorem covered0 (i : S10000x512.Idx) :
    ∃ t : Fin cfg0.N, (cfg0.win 2).flush t = true ∧ i ∈ ((cfg0.win 2).blk t).view.set := by
  have hN : cfg0.N = 10 := N_0
  have hi0 : (i 0).val < 10000 := (i 0).isLt
  have hi1 : (i 1).val < 512 := (i 1).isLt
  obtain ⟨t, ht⟩ : ∃ t : Fin cfg0.N, t.val = (i 0).val / 1000 := ⟨⟨(i 0).val / 1000, by omega⟩, rfl⟩
  obtain ⟨e0, e1, e2, e3, e4, e5⟩ := index_maps0 t
  refine ⟨t, flush0_2 t, ?_⟩
  rw [mem_block0]
  intro a
  match a with
  | ⟨0, _⟩ =>
    show win0_2.index t (0 : Fin 2) * 1000 ≤ (i 0).val ∧ (i 0).val < win0_2.index t (0 : Fin 2) * 1000 + 1000
    omega
  | ⟨1, _⟩ =>
    show win0_2.index t (1 : Fin 2) * 512 ≤ (i 1).val ∧ (i 1).val < win0_2.index t (1 : Fin 2) * 512 + 512
    omega

/-- After the launch the result array is the whole matrix product of the two operand arrays as the launch finds them:
    every step writes back its block of that one product, and the blocks cover the array. -/
theorem region0 (c : Dev nD) :
    (dat0 (F := Ideal) V c).arrAt 2 cfg0.N = mm (M := 10000) (K := 512) (N := 512) (V c main_arg0) (V c main_v30) :=
  (dat0 V c).arrAt_eq_of_cover 2 _ (fun t _ => flushed0_eq V c t) covered0

end Cert.KernelIdeal.RegionVal

end
-- ==== Proof.Region1.lean ====
/-
  The second launch of the blocked matrix product, read as one matrix product.

  The launch multiplies a 10000 × 512 matrix A (the array the launch finds in its left operand) by a 512 × 512 matrix W
  (its right operand) into a 10000 × 512 result, over the extended reals. It does so in ten steps. At step t (t = 0, …, 9)
  the body is given rows 1000·t … 1000·t + 999 of A, a 1000 × 512 block, and all of W; it forms the product of that block
  with W, again 1000 × 512, and the product is written back to rows 1000·t … 1000·t + 999 of the result.

  Entry (r, j) of a matrix product is the sum over k of (row r of the left factor at k) · (column j of the right factor at
  k): it depends on ONE row of the left factor and ONE column of the right. Row i of the block handed over at step t is row
  1000·t + i of A, and W is handed over whole, so entry (i, j) of the block's product with W is, term by term, the same sum
  as entry (1000·t + i, j) of A · W. No finiteness is needed: the two sums have identical terms, infinite or not.
  So what step t writes back is rows 1000·t … 1000·t + 999 of the ONE matrix A · W; every row r < 10000 belongs to the block
  of step r / 1000; hence after the ten steps the result array is A · W, whatever it held before.
-/
import proofs.«137244_j3710851744039_2_alg».proof.Proof.Gen.KernelIdeal.Frame
import proofs.«137244_j3710851744039_2_alg».proof.Proof.LibWholeMat
import Idealize.ShloMosaic.Lib.Pipeline.Value

set_option maxRecDepth 16384

noncomputable section

namespace Cert.KernelIdeal.RegionVal

open Cert.KernelIdeal Cert.KernelIdeal.Gen Idealize.ShloMosaic Idealize.ShloMosaic.TcCoe Idealize.SL.Sem
open Idealize.ShloMosaic.Pipeline (Dat)
open Idealize.ShloMosaic.ValueIdx
open Cert.WholeMat (Mat mm)
open scoped BigOperators

variable (V : (c : Dev nD) → (b : Ref sig .tc) → Buf (Elt Ideal) ((c : Thread nD τ).loc b))

/-- The offsets (0, 0) of an access to a whole block are the all-zero offsets. -/
theorem zeros1 : (![0, 0] : Fin 2 → Nat) = fun _ => 0 := funext fun a => by fin_cases a <;> rfl

/-- What the body stores is the product of its two blocks: the left block is passed through a reshape to its own shape and narrowed to bf16, the right block is passed through a
    reshape to its own shape, and the two are multiplied into an all-zero accumulator. Over the extended reals the narrowing is the
    identity and a reshape to the same shape changes nothing, so what is stored is the plain product of the two blocks. -/
theorem payload1_eq_mm (x0 : Vec Ideal S1000x512 .f32) (x1 : Vec Ideal S512x512 .bf16) :
    k1_pay1 (F := Ideal) x0 x1 = mm (M := 1000) (K := 512) (N := 512) x0 x1 := by
  unfold k1_pay1
  rw [shapeCast_self, shapeCast_self]
  exact Cert.WholeMat.matmul_eq_mm_left _ rfl none (truncf .bf16 x0 _) x1

/-- Where the blocks sit, step by step: at step t the left operand's block is block (t, 0) of 1000 × 512 blocks (rows
    1000·t onward, all columns), the right operand's is block (0, 0) (the whole matrix), and the result's is block (t, 0). -/
theorem index_maps1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- An entry of a product depends on one row of the left factor and one column of the right. If row (j 0) of a
    1000 × 512 matrix x0 is row (i 0) of A, and column (j 1) of x1 is column (i 1) of B, then entry j of x0 · x1 is entry i
    of A · B: the two sums over k have the same terms. -/
theorem mm_block1 (A : Mat 10000 512) (B : Mat 512 512) (x0 : Mat 1000 512) (x1 : Mat 512 512)
    (j : S1000x512.Idx) (i : S10000x512.Idx)
    (h0 : ∀ k : Fin 512, x0 (ix2 ⟨(j 0).val, idx2_lt0 j⟩ k) = A (ix2 ⟨(i 0).val, idx2_lt0 i⟩ k))
    (h1 : ∀ k : Fin 512, x1 (ix2 k ⟨(j 1).val, idx2_lt1 j⟩) = B (ix2 k ⟨(i 1).val, idx2_lt1 i⟩)) :
    mm x0 x1 j = mm A B i := by
  unfold Cert.WholeMat.mm
  exact Finset.sum_congr rfl fun k _ => by rw [h0 k, h1 k]

/-- What step t writes back is block t of the whole product: entry (i, j) of (rows 1000·t … of A) · W is entry
    (1000·t + i, j) of A · W. An element of a block sits in its array, on each axis, at the block's index times the block's
    extent plus its coordinate inside the block; with the block indices above, row i of the left block is row 1000·t + i of A,
    the same row the result's block puts entry (i, j) in, and column j of the right block is column j of W. -/
theorem flushed1_eq (c : Dev nD) (t : Fin cfg1.N) :
    (dat1 (F := Ideal) V c).flushed 2 t
      = ((cfg1.win 2).blk t).view.read (Elt Ideal) (mm (M := 10000) (K := 512) (N := 512) (V c main_v49) (V c main_v51)) := by
  show (cfg1.win 2).cut (grid1.coords t) ((dat1 V c).after 2 t) = _
  rw [after1_2]
  unfold out1_2
  rw [View.canon_unit_zero zeros1]
  simp only [View.ld_unit_zero (S := S1000x512) zeros1, View.ld_unit_zero (S := S512x512) zeros1]
  rw [payload1_eq_mm]
  obtain ⟨e0, e1, e2, e3, e4, e5⟩ := index_maps1 t
  funext j
  show mm (M := 1000) (K := 512) (N := 512) (iblk1 V c 0 t) (iblk1 V c 1 t) j
    = mm (M := 10000) (K := 512) (N := 512) (V c main_v49) (V c main_v51) (((cfg1.win 2).blk t).view.emb j)
  refine mm_block1 (V c main_v49) (V c main_v51) _ _ j (((cfg1.win 2).blk t).view.emb j) (fun k => ?_) (fun k => ?_)
  · -- row (j 0) of the left block is row 1000·t + (j 0) of A
    show V c main_v49 (((cfg1.win 0).blk t).view.emb (ix2 ⟨(j 0).val, idx2_lt0 j⟩ k)) = _
    refine congrArg _ (funext fun a => Fin.ext ?_)
    match a with
    | ⟨0, _⟩ =>
      show win1_0.index t (0 : Fin 2) * 1000 + 1 * (j 0).val = win1_2.index t (0 : Fin 2) * 1000 + 1 * (j 0).val
      omega
    | ⟨1, _⟩ =>
      show win1_0.index t (1 : Fin 2) * 512 + 1 * k.val = k.val
      omega
  · -- column (j 1) of the right block is column (j 1) of W
    show V c main_v51 (((cfg1.win 1).blk t).view.emb (ix2 k ⟨(j 1).val, idx2_lt1 j⟩)) = _
    refine congrArg _ (funext fun a => Fin.ext ?_)
    match a with
    | ⟨0, _⟩ =>
      show win1_1.index t (0 : Fin 2) * 512 + 1 * k.val = k.val
      omega
    | ⟨1, _⟩ =>
      show win1_1.index t (1 : Fin 2) * 512 + 1 * (j 1).val = win1_2.index t (1 : Fin 2) * 512 + 1 * (j 1).val
      omega

/-- An index of the result array lies in step t's block iff, on each axis, its coordinate lies in the block's range:
    from the block's index times the block's extent, for one extent. -/
theorem mem_block1 (t : Fin cfg1.N) (i : S10000x512.Idx) :
    i ∈ ((cfg1.win 2).blk t).view.set ↔ ∀ a : Fin 2, win1_2.index t a * S1000x512.size a ≤ (i a).val
      ∧ (i a).val < win1_2.index t a * S1000x512.size a + S1000x512.size a := by
  show i ∈ ((View.whole main_v52).slice (win1_2.rect t)).set ↔ _
  rw [View.set_slice_whole, Rect.mem_set_unit]
  exact Iff.rfl

/-- The ten blocks cover the result array: entry (r, j) lies in the block of step r / 1000, whose rows are
    1000·(r / 1000) … 1000·(r / 1000) + 999 and whose columns are all 512. -/
theorem covered1 (i : S10000x512.Idx) :
    ∃ t : Fin cfg1.N, (cfg1.win 2).flush t = true ∧ i ∈ ((cfg1.win 2).blk t).view.set := by
  have hN : cfg1.N = 10 := N_1
  have hi0 : (i 0).val < 10000 := (i 0).isLt
  have hi1 : (i 1).val < 512 := (i 1).isLt
  obtain ⟨t, ht⟩ : ∃ t : Fin cfg1.N, t.val = (i 0).val / 1000 := ⟨⟨(i 0).val / 1000, by omega⟩, rfl⟩
  obtain ⟨e0, e1, e2, e3, e4, e5⟩ := index_maps1 t
  refine ⟨t, flush1_2 t, ?_⟩
  rw [mem_block1]
  intro a
  match a with
  | ⟨0, _⟩ =>
    show win1_2.index t (0 : Fin 2) * 1000 ≤ (i 0).val ∧ (i 0).val < win1_2.index t (0 : Fin 2) * 1000 + 1000
    omega
  | ⟨1, _⟩ =>
    show win1_2.index t (1 : Fin 2) * 512 ≤ (i 1).val ∧ (i 1).val < win1_2.index t (1 : Fin 2) * 512 + 512
    omega

/-- After the launch the result array is the whole matrix product of the two operand arrays as the launch finds them:
    every step writes back its block of that one product, and the blocks cover the array. -/
theorem region1 (c : Dev nD) :
    (dat1 (F := Ideal) V c).arrAt 2 cfg1.N = mm (M := 10000) (K := 512) (N := 512) (V c main_v49) (V c main_v51) :=
  (dat1 V c).arrAt_eq_of_cover 2 _ (fun t _ => flushed1_eq V c t) covered1

end Cert.KernelIdeal.RegionVal

end
-- ==== Proof.Region2.lean ====
/-
  The third launch of the blocked matrix product, read as one matrix product.

  The launch multiplies a 10000 × 512 matrix A (the array the launch finds in its left operand) by a 512 × 512 matrix W
  (its right operand) into a 10000 × 512 result, over the extended reals. It does so in ten steps. At step t (t = 0, …, 9)
  the body is given rows 1000·t … 1000·t + 999 of A, a 1000 × 512 block, and all of W; it forms the product of that block
  with W, again 1000 × 512, and the product is written back to rows 1000·t … 1000·t + 999 of the result.

  Entry (r, j) of a matrix product is the sum over k of (row r of the left factor at k) · (column j of the right factor at
  k): it depends on ONE row of the left factor and ONE column of the right. Row i of the block handed over at step t is row
  1000·t + i of A, and W is handed over whole, so entry (i, j) of the block's product with W is, term by term, the same sum
  as entry (1000·t + i, j) of A · W. No finiteness is needed: the two sums have identical terms, infinite or not.
  So what step t writes back is rows 1000·t … 1000·t + 999 of the ONE matrix A · W; every row r < 10000 belongs to the block
  of step r / 1000; hence after the ten steps the result array is A · W, whatever it held before.
-/
import proofs.«137244_j3710851744039_2_alg».proof.Proof.Gen.KernelIdeal.Frame
import proofs.«137244_j3710851744039_2_alg».proof.Proof.LibWholeMat
import Idealize.ShloMosaic.Lib.Pipeline.Value

set_option maxRecDepth 16384

noncomputable section

namespace Cert.KernelIdeal.RegionVal

open Cert.KernelIdeal Cert.KernelIdeal.Gen Idealize.ShloMosaic Idealize.ShloMosaic.TcCoe Idealize.SL.Sem
open Idealize.ShloMosaic.Pipeline (Dat)
open Idealize.ShloMosaic.ValueIdx
open Cert.WholeMat (Mat mm)
open scoped BigOperators

variable (V : (c : Dev nD) → (b : Ref sig .tc) → Buf (Elt Ideal) ((c : Thread nD τ).loc b))

/-- The offsets (0, 0) of an access to a whole block are the all-zero offsets. -/
theorem zeros2 : (![0, 0] : Fin 2 → Nat) = fun _ => 0 := funext fun a => by fin_cases a <;> rfl

/-- What the body stores is the product of its two blocks: the left block is passed through a reshape to its own shape and narrowed to bf16, the right block is passed through a
    reshape to its own shape, and the two are multiplied into an all-zero accumulator. Over the extended reals the narrowing is the
    identity and a reshape to the same shape changes nothing, so what is stored is the plain product of the two blocks. -/
theorem payload2_eq_mm (x0 : Vec Ideal S1000x512 .f32) (x1 : Vec Ideal S512x512 .bf16) :
    k2_pay1 (F := Ideal) x0 x1 = mm (M := 1000) (K := 512) (N := 512) x0 x1 := by
  unfold k2_pay1
  rw [shapeCast_self, shapeCast_self]
  exact Cert.WholeMat.matmul_eq_mm_left _ rfl none (truncf .bf16 x0 _) x1

/-- Where the blocks sit, step by step: at step t the left operand's block is block (t, 0) of 1000 × 512 blocks (rows
    1000·t onward, all columns), the right operand's is block (0, 0) (the whole matrix), and the result's is block (t, 0). -/
theorem index_maps2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- An entry of a product depends on one row of the left factor and one column of the right. If row (j 0) of a
    1000 × 512 matrix x0 is row (i 0) of A, and column (j 1) of x1 is column (i 1) of B, then entry j of x0 · x1 is entry i
    of A · B: the two sums over k have the same terms. -/
theorem mm_block2 (A : Mat 10000 512) (B : Mat 512 512) (x0 : Mat 1000 512) (x1 : Mat 512 512)
    (j : S1000x512.Idx) (i : S10000x512.Idx)
    (h0 : ∀ k : Fin 512, x0 (ix2 ⟨(j 0).val, idx2_lt0 j⟩ k) = A (ix2 ⟨(i 0).val, idx2_lt0 i⟩ k))
    (h1 : ∀ k : Fin 512, x1 (ix2 k ⟨(j 1).val, idx2_lt1 j⟩) = B (ix2 k ⟨(i 1).val, idx2_lt1 i⟩)) :
    mm x0 x1 j = mm A B i := by
  unfold Cert.WholeMat.mm
  exact Finset.sum_congr rfl fun k _ => by rw [h0 k, h1 k]

/-- What step t writes back is block t of the whole product: entry (i, j) of (rows 1000·t … of A) · W is entry
    (1000·t + i, j) of A · W. An element of a block sits in its array, on each axis, at the block's index times the block's
    extent plus its coordinate inside the block; with the block indices above, row i of the left block is row 1000·t + i of A,
    the same row the result's block puts entry (i, j) in, and column j of the right block is column j of W. -/
theorem flushed2_eq (c : Dev nD) (t : Fin cfg2.N) :
    (dat2 (F := Ideal) V c).flushed 2 t
      = ((cfg2.win 2).blk t).view.read (Elt Ideal) (mm (M := 10000) (K := 512) (N := 512) (V c main_v70) (V c main_v72)) := by
  show (cfg2.win 2).cut (grid2.coords t) ((dat2 V c).after 2 t) = _
  rw [after2_2]
  unfold out2_2
  rw [View.canon_unit_zero zeros2]
  simp only [View.ld_unit_zero (S := S1000x512) zeros2, View.ld_unit_zero (S := S512x512) zeros2]
  rw [payload2_eq_mm]
  obtain ⟨e0, e1, e2, e3, e4, e5⟩ := index_maps2 t
  funext j
  show mm (M := 1000) (K := 512) (N := 512) (iblk2 V c 0 t) (iblk2 V c 1 t) j
    = mm (M := 10000) (K := 512) (N := 512) (V c main_v70) (V c main_v72) (((cfg2.win 2).blk t).view.emb j)
  refine mm_block2 (V c main_v70) (V c main_v72) _ _ j (((cfg2.win 2).blk t).view.emb j) (fun k => ?_) (fun k => ?_)
  · -- row (j 0) of the left block is row 1000·t + (j 0) of A
    show V c main_v70 (((cfg2.win 0).blk t).view.emb (ix2 ⟨(j 0).val, idx2_lt0 j⟩ k)) = _
    refine congrArg _ (funext fun a => Fin.ext ?_)
    match a with
    | ⟨0, _⟩ =>
      show win2_0.index t (0 : Fin 2) * 1000 + 1 * (j 0).val = win2_2.index t (0 : Fin 2) * 1000 + 1 * (j 0).val
      omega
    | ⟨1, _⟩ =>
      show win2_0.index t (1 : Fin 2) * 512 + 1 * k.val = k.val
      omega
  · -- column (j 1) of the right block is column (j 1) of W
    show V c main_v72 (((cfg2.win 1).blk t).view.emb (ix2 k ⟨(j 1).val, idx2_lt1 j⟩)) = _
    refine congrArg _ (funext fun a => Fin.ext ?_)
    match a with
    | ⟨0, _⟩ =>
      show win2_1.index t (0 : Fin 2) * 512 + 1 * k.val = k.val
      omega
    | ⟨1, _⟩ =>
      show win2_1.index t (1 : Fin 2) * 512 + 1 * (j 1).val = win2_2.index t (1 : Fin 2) * 512 + 1 * (j 1).val
      omega

/-- An index of the result array lies in step t's block iff, on each axis, its coordinate lies in the block's range:
    from the block's index times the block's extent, for one extent. -/
theorem mem_block2 (t : Fin cfg2.N) (i : S10000x512.Idx) :
    i ∈ ((cfg2.win 2).blk t).view.set ↔ ∀ a : Fin 2, win2_2.index t a * S1000x512.size a ≤ (i a).val
      ∧ (i a).val < win2_2.index t a * S1000x512.size a + S1000x512.size a := by
  show i ∈ ((View.whole main_v73).slice (win2_2.rect t)).set ↔ _
  rw [View.set_slice_whole, Rect.mem_set_unit]
  exact Iff.rfl

/-- The ten blocks cover the result array: entry (r, j) lies in the block of step r / 1000, whose rows are
    1000·(r / 1000) … 1000·(r / 1000) + 999 and whose columns are all 512. -/
theorem covered2 (i : S10000x512.Idx) :
    ∃ t : Fin cfg2.N, (cfg2.win 2).flush t = true ∧ i ∈ ((cfg2.win 2).blk t).view.set := by
  have hN : cfg2.N = 10 := N_2
  have hi0 : (i 0).val < 10000 := (i 0).isLt
  have hi1 : (i 1).val < 512 := (i 1).isLt
  obtain ⟨t, ht⟩ : ∃ t : Fin cfg2.N, t.val = (i 0).val / 1000 := ⟨⟨(i 0).val / 1000, by omega⟩, rfl⟩
  obtain ⟨e0, e1, e2, e3, e4, e5⟩ := index_maps2 t
  refine ⟨t, flush2_2 t, ?_⟩
  rw [mem_block2]
  intro a
  match a with
  | ⟨0, _⟩ =>
    show win2_2.index t (0 : Fin 2) * 1000 ≤ (i 0).val ∧ (i 0).val < win2_2.index t (0 : Fin 2) * 1000 + 1000
    omega
  | ⟨1, _⟩ =>
    show win2_2.index t (1 : Fin 2) * 512 ≤ (i 1).val ∧ (i 1).val < win2_2.index t (1 : Fin 2) * 512 + 512
    omega

/-- After the launch the result array is the whole matrix product of the two operand arrays as the launch finds them:
    every step writes back its block of that one product, and the blocks cover the array. -/
theorem region2 (c : Dev nD) :
    (dat2 (F := Ideal) V c).arrAt 2 cfg2.N = mm (M := 10000) (K := 512) (N := 512) (V c main_v70) (V c main_v72) :=
  (dat2 V c).arrAt_eq_of_cover 2 _ (fun t _ => flushed2_eq V c t) covered2

end Cert.KernelIdeal.RegionVal

end
-- ==== Proof.KVal.lean ====
/-
  The idealized kernel's result array, as a function of the argument arrays.

  The program's last contents are a fold of its segments over the launch memory. Walking the fold forward: the
  first stretch builds the index vectors and the edge weights; each launch leaves in its result array the whole
  matrix product of the activations and the layer's weight matrix (its ten row blocks cover the array), and a whole
  product is what the reference's dot_general computes; each stretch after a launch aggregates the product over the
  edges, adds the bias and clamps at zero; the last stretch pools per graph, applies the classifier and the
  log-softmax. At every boundary the arrays the rest of the program reads are the reference's stages of the same
  arguments, so the result array is the reference's result stage.
-/
import proofs.«137244_j3710851744039_2_alg».proof.Proof.Gen.KernelIdeal.Frame
import proofs.«137244_j3710851744039_2_alg».proof.Proof.Gen.ReferenceIdeal.Read
import proofs.«137244_j3710851744039_2_alg».proof.Proof.LibWholeMat
import proofs.«137244_j3710851744039_2_alg».proof.Proof.HostA
import proofs.«137244_j3710851744039_2_alg».proof.Proof.HostB
import proofs.«137244_j3710851744039_2_alg».proof.Proof.HostC
import proofs.«137244_j3710851744039_2_alg».proof.Proof.HostD
import proofs.«137244_j3710851744039_2_alg».proof.Proof.Region0
import proofs.«137244_j3710851744039_2_alg».proof.Proof.Region1
import proofs.«137244_j3710851744039_2_alg».proof.Proof.Region2

noncomputable section

namespace Cert.KernelIdeal.KernelVal

open Cert.KernelIdeal Cert.KernelIdeal.Gen Cert.KernelIdeal.HostVal Cert.KernelIdeal.RegionVal
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Up to the first launch -/

theorem carried1 : Carried (W1 m ρ c) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  carried_first (W0 m ρ c)

/-- The first launch's result array is the reference's first product. -/
theorem prod2 : W2 m ρ c (Proc.devRef .tc main_v31) = Cert.ReferenceIdeal.Read.val_main_v30 (F := Ideal) (m ((c : Thread nD τ).loc main_arg0)) (m ((c : Thread nD τ).loc main_arg3)) := by
  refine (W2_arr m ρ c 2).trans ((region0 (V1 m ρ) c).trans ?_)
  show Cert.WholeMat.mm (M := 10000) (K := 512) (N := 512) (W1 m ρ c (Proc.devRef .tc main_arg0)) (W1 m ρ c (Proc.devRef .tc main_v30)) = _
  rw [show W1 m ρ c (Proc.devRef .tc main_arg0) = (m ((c : Thread nD τ).loc main_arg0)) from first_arg0 (W0 m ρ c)]
  rw [show (W1 m ρ c (Proc.devRef .tc main_v30) : S512x512.Idx → EReal) = Cert.ReferenceIdeal.Read.val_main_v29 (F := Ideal) (m ((c : Thread nD τ).loc main_arg3)) from first_w0 (W0 m ρ c)]
  exact (Cert.WholeMat.dotGeneral_eq_mm _ rfl none _ _).symm

/-- The launch writes only its result array: the carried arrays are as the launch found them. -/
theorem carried2 : Carried (W2 m ρ c) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) where
  row := (W2_of_ne m ρ c main_v5 (by decide)).trans (carried1 m ρ c).row
  col := (W2_of_ne m ρ c main_v6 (by decide)).trans (carried1 m ρ c).col
  norm := (W2_of_ne m ρ c main_v27 (by decide)).trans (carried1 m ρ c).norm
  wts := (W2_of_ne m ρ c main_v28 (by decide)).trans (carried1 m ρ c).wts
  a2 := (W2_of_ne m ρ c main_arg2 (by decide)).trans (carried1 m ρ c).a2
  a4 := (W2_of_ne m ρ c main_arg4 (by decide)).trans (carried1 m ρ c).a4
  a5 := (W2_of_ne m ρ c main_arg5 (by decide)).trans (carried1 m ρ c).a5
  a6 := (W2_of_ne m ρ c main_arg6 (by decide)).trans (carried1 m ρ c).a6

/-! ## Between the first and the second launch -/

theorem carried5 : Carried (W5 m ρ c) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  carried_between0 (W2 m ρ c) _ _ _ _ _ _ (carried2 m ρ c)

theorem acts5 : W5 m ρ c (Proc.devRef .tc main_v49) = Cert.ReferenceIdeal.Read.val_main_v48 (F := Ideal) (m ((c : Thread nD τ).loc main_arg0)) (m ((c : Thread nD τ).loc main_arg1)) (m ((c : Thread nD τ).loc main_arg3)) (m ((c : Thread nD τ).loc main_arg4)) :=
  acts_between0 (W2 m ρ c) _ _ _ _ _ _ _ (carried2 m ρ c) (prod2 m ρ c)

theorem weights5 : (W5 m ρ c (Proc.devRef .tc main_v51) : S512x512.Idx → EReal) = Cert.ReferenceIdeal.Read.val_main_v50 (F := Ideal) (m ((c : Thread nD τ).loc main_arg3)) :=
  weights_between0 (W2 m ρ c) _ _ _ _ _ _ (carried2 m ρ c)

/-- The second launch's result array is the reference's second product. -/
theorem prod6 : W6 m ρ c (Proc.devRef .tc main_v52) = Cert.ReferenceIdeal.Read.val_main_v51 (F := Ideal) (m ((c : Thread nD τ).loc main_arg0)) (m ((c : Thread nD τ).loc main_arg1)) (m ((c : Thread nD τ).loc main_arg3)) (m ((c : Thread nD τ).loc main_arg4)) := by
  refine (W6_arr m ρ c 2).trans ((region1 (V5 m ρ) c).trans ?_)
  show Cert.WholeMat.mm (M := 10000) (K := 512) (N := 512) (W5 m ρ c (Proc.devRef .tc main_v49)) (W5 m ρ c (Proc.devRef .tc main_v51)) = _
  rw [acts5 m ρ c, weights5 m ρ c]
  exact (Cert.WholeMat.dotGeneral_eq_mm _ rfl none _ _).symm

/-- The launch writes only its result array: the carried arrays are as the launch found them. -/
theorem carried6 : Carried (W6 m ρ c) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) where
  row := (W6_of_ne m ρ c main_v5 (by decide)).trans (carried5 m ρ c).row
  col := (W6_of_ne m ρ c main_v6 (by decide)).trans (carried5 m ρ c).col
  norm := (W6_of_ne m ρ c main_v27 (by decide)).trans (carried5 m ρ c).norm
  wts := (W6_of_ne m ρ c main_v28 (by decide)).trans (carried5 m ρ c).wts
  a2 := (W6_of_ne m ρ c main_arg2 (by decide)).trans (carried5 m ρ c).a2
  a4 := (W6_of_ne m ρ c main_arg4 (by decide)).trans (carried5 m ρ c).a4
  a5 := (W6_of_ne m ρ c main_arg5 (by decide)).trans (carried5 m ρ c).a5
  a6 := (W6_of_ne m ρ c main_arg6 (by decide)).trans (carried5 m ρ c).a6

/-! ## Between the second and the third launch -/

theorem carried9 : Carried (W9 m ρ c) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  carried_between1 (W6 m ρ c) _ _ _ _ _ _ (carried6 m ρ c)

theorem acts9 : W9 m ρ c (Proc.devRef .tc main_v70) = Cert.ReferenceIdeal.Read.val_main_v69 (F := Ideal) (m ((c : Thread nD τ).loc main_arg0)) (m ((c : Thread nD τ).loc main_arg1)) (m ((c : Thread nD τ).loc main_arg3)) (m ((c : Thread nD τ).loc main_arg4)) :=
  acts_between1 (W6 m ρ c) _ _ _ _ _ _ _ (carried6 m ρ c) (prod6 m ρ c)

theorem weights9 : (W9 m ρ c (Proc.devRef .tc main_v72) : S512x512.Idx → EReal) = Cert.ReferenceIdeal.Read.val_main_v71 (F := Ideal) (m ((c : Thread nD τ).loc main_arg3)) :=
  weights_between1 (W6 m ρ c) _ _ _ _ _ _ (carried6 m ρ c)

/-- The third launch's result array is the reference's third product. -/
theorem prod10 : W10 m ρ c (Proc.devRef .tc main_v73) = Cert.ReferenceIdeal.Read.val_main_v72 (F := Ideal) (m ((c : Thread nD τ).loc main_arg0)) (m ((c : Thread nD τ).loc main_arg1)) (m ((c : Thread nD τ).loc main_arg3)) (m ((c : Thread nD τ).loc main_arg4)) := by
  refine (W10_arr m ρ c 2).trans ((region2 (V9 m ρ) c).trans ?_)
  show Cert.WholeMat.mm (M := 10000) (K := 512) (N := 512) (W9 m ρ c (Proc.devRef .tc main_v70)) (W9 m ρ c (Proc.devRef .tc main_v72)) = _
  rw [acts9 m ρ c, weights9 m ρ c]
  exact (Cert.WholeMat.dotGeneral_eq_mm _ rfl none _ _).symm

/-- The launch writes only its result array: the carried arrays are as the launch found them. -/
theorem carried10 : Carried (W10 m ρ c) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) where
  row := (W10_of_ne m ρ c main_v5 (by decide)).trans (carried9 m ρ c).row
  col := (W10_of_ne m ρ c main_v6 (by decide)).trans (carried9 m ρ c).col
  norm := (W10_of_ne m ρ c main_v27 (by decide)).trans (carried9 m ρ c).norm
  wts := (W10_of_ne m ρ c main_v28 (by decide)).trans (carried9 m ρ c).wts
  a2 := (W10_of_ne m ρ c main_arg2 (by decide)).trans (carried9 m ρ c).a2
  a4 := (W10_of_ne m ρ c main_arg4 (by decide)).trans (carried9 m ρ c).a4
  a5 := (W10_of_ne m ρ c main_arg5 (by decide)).trans (carried9 m ρ c).a5
  a6 := (W10_of_ne m ρ c main_arg6 (by decide)).trans (carried9 m ρ c).a6

/-! ## After the last launch -/

/-- THE RESULT: the last contents' result array is the reference's result stage of the argument arrays. -/
theorem result : W14 m ρ c (Proc.devRef .tc main_v99)
    = Cert.ReferenceIdeal.Read.val_main_v98 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  result_afterLast (W10 m ρ c) _ _ _ _ _ _ _ (carried10 m ρ c) (prod10 m ρ c)

end Cert.KernelIdeal.KernelVal
end
-- ==== Proof.lean ====
/-
  A three-layer graph convolution network with sum pooling, a linear classifier and a log-softmax: the kernel program
  against its reference, over the extended reals.

  Both programs build, from the edge list with self-loops appended, the symmetric normalisation
  1/sqrt(deg(source)) · 1/sqrt(deg(target)) of every edge, and then three times map the node features x to
  relu(A (x W_l) + b_l), A the normalised adjacency applied as gather, scale, scatter-add. They differ only in how
  x W_l is computed: the reference by one dot_general; the kernel program by a launch that narrows both operands to
  bf16 — the identity on extended reals —, cuts x into ten blocks of a thousand rows and writes the product of
  each block with the whole of W_l into the same rows of the result. The ten row blocks cover the result array, and
  entry (r, j) of a block's product is the sum over k of x (r, k) · W_l (k, j) whatever block r lies in: the launch
  leaves the whole product, which is the reference's dot_general. No law of arithmetic beyond that is used, so the
  finiteness of the inputs is not needed: the two results are one function of the arguments on all extended reals.

  The three frames are the generated ones (the reference's is its generated run with the result dropped), the
  idealization rewrote nothing, and the algebraic claim sets the kernel program's run with its result named beside
  the reference's run: both results are the reference's result stage of the (agreeing) argument arrays.
-/
import proofs.«137244_j3710851744039_2_alg».proof.Defs
import proofs.«137244_j3710851744039_2_alg».proof.Proof.Gen.Kernel
import proofs.«137244_j3710851744039_2_alg».proof.Proof.Gen.Kernel.Skeleton
import proofs.«137244_j3710851744039_2_alg».proof.Proof.Gen.Kernel.Launch
import proofs.«137244_j3710851744039_2_alg».proof.Proof.Gen.Kernel.Points
import proofs.«137244_j3710851744039_2_alg».proof.Proof.Gen.Kernel.Frame
import proofs.«137244_j3710851744039_2_alg».proof.Proof.Gen.KernelIdeal
import proofs.«137244_j3710851744039_2_alg».proof.Proof.Gen.KernelIdeal.Skeleton
import proofs.«137244_j3710851744039_2_alg».proof.Proof.Gen.KernelIdeal.Launch
import proofs.«137244_j3710851744039_2_alg».proof.Proof.Gen.KernelIdeal.Points
import proofs.«137244_j3710851744039_2_alg».proof.Proof.Gen.KernelIdeal.Frame
import proofs.«137244_j3710851744039_2_alg».proof.Proof.Gen.ReferenceIdeal
import proofs.«137244_j3710851744039_2_alg».proof.Proof.Gen.Pre_finite_inputs
import proofs.«137244_j3710851744039_2_alg».proof.Proof.Gen.ReferenceIdeal.Run
import proofs.«137244_j3710851744039_2_alg».proof.Proof.Gen.ReferenceIdeal.Read
import proofs.«137244_j3710851744039_2_alg».proof.Proof.KRun
import proofs.«137244_j3710851744039_2_alg».proof.Proof.KVal
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the reference's result stage of those arguments. -/
theorem algebraic : Cert.algebraic_KernelIdeal_ReferenceIdeal := by
  intro m ρ m' ρ' _ hagree
  refine ⟨fun c => Cert.ReferenceIdeal.Read.val_main_v98 (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.KernelVal.result m ρ c), (h c).2⟩)
      (Cert.KernelIdeal.RunVal.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v98_eq]
    obtain ⟨e0, e1, e2, e3, e4, e5, e6⟩ := hagree c
    rw [e0, e1, e2, e3, e4, e5, e6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
